-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x8192 : S_.BroadcastsInDim S8x2048x8192 (![] : Fin 0 → Fin S8x2048x8192.rank)
  reducesTo_S8x2048x8192_S_d0_1_2 : S8x2048x8192.ReducesTo [0, 1, 2] S_
  bcast_S_S8x4096x2048 : S_.BroadcastsInDim S8x4096x2048 (![] : Fin 0 → Fin S8x4096x2048.rank)
  reducesTo_S8x4096x2048_S_d0_1_2 : S8x4096x2048.ReducesTo [0, 1, 2] S_

variable [Facts]

def fn {F : FTy → Type} [FloatOps F] (main_arg0 : FVec F S8192x2048 .f32) (main_arg1 : FVec F S8x2048x8192 .f32) (main_arg2 : FVec F S8x4096x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x8192 .f32 := Host.absf main_arg1
  let main_cst_0 : FVec F S_ .f32 := constant S_ .f32 0x7F800000#32
  let main_v5 : FVec F S8x2048x8192 .f32 := broadcastInDim S8x2048x8192 ![] bcast_S_S8x2048x8192 main_cst_0
  let main_v6 : IVec S8x2048x8192 1 := cmpf .olt main_v4 main_v5
  let main_c_1 : IVec S_ 1 := constantI S_ 1 1#1
  let main_v7 : IVec S_ 1 := (fun x v => Host.reduce IntOp.andi x v reducesTo_S8x2048x8192_S_d0_1_2 h_S_) main_v6 main_c_1
  let main_v8 : IVec S_ 1 := andi main_v3 main_v7
  let main_v9 : FVec F S8x4096x2048 .f32 := Host.absf main_arg2
  let main_cst_2 : FVec F S_ .f32 := constant S_ .f32 0x7F800000#32
  let main_v10 : FVec F S8x4096x2048 .f32 := broadcastInDim S8x4096x2048 ![] bcast_S_S8x4096x2048 main_cst_2
  let main_v11 : IVec S8x4096x2048 1 := cmpf .olt main_v9 main_v10
  let main_c_3 : IVec S_ 1 := constantI S_ 1 1#1
  let main_v12 : IVec S_ 1 := (fun x v => Host.reduce IntOp.andi x v reducesTo_S8x4096x2048_S_d0_1_2 h_S_) main_v11 main_c_3
  let main_v13 : IVec S_ 1 := andi main_v8 main_v12
  main_v13
-- ==== Kernel.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S8x1024x2048 : Shape := ⟨3, ![8, 1024, 2048]⟩
abbrev S1x1024x2048 : Shape := ⟨3, ![1, 1024, 2048]⟩
abbrev S1x2048x256 : Shape := ⟨3, ![1, 2048, 256]⟩
abbrev S1x4096x256 : Shape := ⟨3, ![1, 4096, 256]⟩
abbrev S1x1024x256 : Shape := ⟨3, ![1, 1024, 256]⟩
abbrev S1024x4096 : Shape := ⟨2, ![1024, 4096]⟩
abbrev S1024x2048 : Shape := ⟨2, ![1024, 2048]⟩
abbrev S2048x256 : Shape := ⟨2, ![2048, 256]⟩
abbrev S1024x256 : Shape := ⟨2, ![1024, 256]⟩
abbrev S4096x256 : Shape := ⟨2, ![4096, 256]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8x4096x2048, .f32⟩
  | .hbm, ⟨3, _⟩ => ⟨S8x1024x2048, .f32⟩
  | .hbm, ⟨4, _⟩ => ⟨S8x1024x2048, .bf16⟩
  | .hbm, ⟨5, _⟩ => ⟨S8x1024x2048, .f32⟩
  | .hbm, ⟨6, _⟩ => ⟨S8192x2048, .f32⟩
  | .local _ .vmem, ⟨0, _⟩ => ⟨S1x1024x2048, .bf16⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x4096x256, .f32⟩
  | .local _ .vmem, ⟨6, _⟩ => ⟨S1x4096x256, .f32⟩
  | .local _ .vmem, ⟨7, _⟩ => ⟨S1x1024x256, .f32⟩
  | .local _ .vmem, ⟨8, _⟩ => ⟨S1x1024x256, .f32⟩
  | .local _ .vmem, ⟨9, _⟩ => ⟨S1024x4096, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 24], ![false, false]⟩

def k0_cond1 (i : grid0.Coords) : BitVec 1 :=
  let arg1 : BitVec 32 := BitVec.ofNat 32 (i 1).val
  let c16_i32 : BitVec 32 := 16#32
  let v0 : BitVec 1 := Scalar.cmpi .slt arg1 c16_i32
  let v1 : BitVec 32 := Scalar.extui v0
  let c0_i32 : BitVec 32 := 0#32
  let v2 : BitVec 1 := Scalar.cmpi .ne v1 c0_i32
  v2

def k0_mult1 (i : grid0.Coords) : BitVec 32 :=
  let arg1 : BitVec 32 := BitVec.ofNat 32 (i 1).val
  let c256_i32 : BitVec 32 := 256#32
  let v19 : BitVec 32 := Scalar.muli arg1 c256_i32
  v19
def k0_off1 (i : grid0.Coords) : Fin 2 → Nat :=
  let c0_11 : Index := 0#32
  let arg1 : BitVec 32 := BitVec.ofNat 32 (i 1).val
  let c256_i32 : BitVec 32 := 256#32
  let v19 : BitVec 32 := Scalar.muli arg1 c256_i32
  let v20 : BitVec 32 := v19
  let v22 : Index := Scalar.indexCast v20
  ![0, v22.toNat]
def k0_cond2 (i : grid0.Coords) : BitVec 1 :=
  let arg1 : BitVec 32 := BitVec.ofNat 32 (i 1).val
  let c16_i32_0 : BitVec 32 := 16#32
  let v3 : BitVec 1 := Scalar.cmpi .sge arg1 c16_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c16_i32 : BitVec 32 := 16#32
  let v1 : BitVec 32 := Scalar.addi v0 c16_i32
  let c0_i32 : BitVec 32 := 0#32
  let c0_i32_0 : BitVec 32 := 0#32
  ![arg0.toNat, c0_i32.toNat, v1.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

abbrev stage0_0 : Fin 1 → Memref sig .tc .vmem S1x1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8192x2048_S8x1024x2048 : S8192x2048.ShapeCasts S8x1024x2048
  bitsLt_bf16_f32 : FTy.bits .bf16 < FTy.bits .f32
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  h_S1024x256 : 0 < S1024x256.numel
  shapeCasts_S1024x256_S1024x256 : S1024x256.ShapeCasts S1024x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S1024x4096_S1024x4096_0_0 : ∀ a, (![0, 0] : Fin 2 → Nat) a + S1024x4096.size a ≤ S1024x4096.size a
  h_S1024x4096 : 0 < S1024x4096.numel
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  shapeCasts_S8x1024x2048_S8192x2048 : S8x1024x2048.ShapeCasts S8192x2048
  dot_S1024x2048_S2048x256_S1024x256_1_0_0_1_n_n_wf : DotDims.WF S1024x2048 S2048x256 S1024x256 [1] [0] [0] [1] [] []
  dot_S1024x4096_S4096x256_S1024x256_1_0_0_1_n_n_wf : DotDims.WF S1024x4096 S4096x256 S1024x256 [1] [0] [0] [1] [] []
  hrank0 : 0 < grid0.rank
  k0_mult1_dvd : ∀ i : grid0.Coords, ∀ (k0_h1 : k0_cond1 i = 1#1), 256 ∣ (k0_mult1 i).toNat
  k0_off1_inb : ∀ i : grid0.Coords, ∀ (k0_h1 : k0_cond1 i = 1#1), ∀ a, (k0_off1 i) a + S1024x256.size a ≤ S1024x4096.size a
  k0_off1_packedbf16 : ∀ i : grid0.Coords, ∀ (k0_h1 : k0_cond1 i = 1#1), (Rect.unit (s := S1024x4096) (k0_off1 i) S1024x256.size (k0_off1_inb i k0_h1)).PackedRows (EltTy.packing .bf16)
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x1024x2048.size a
  hwx0_0 : ∀ i : grid0.Coords, EltTy.bits .bf16 = 32 ∨ (Rect.block (s := S8x1024x2048) S1x1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x8192.size a
  hwx0_1 : ∀ i : grid0.Coords, EltTy.bits .f32 = 32 ∨ (Rect.block (s := S8x2048x8192) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x2048x8192.size a
  hwx0_2 : ∀ i : grid0.Coords, EltTy.bits .f32 = 32 ∨ (Rect.block (s := S8x2048x8192) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x256.size a ≤ S8x4096x2048.size a
  hwx0_3 : ∀ i : grid0.Coords, EltTy.bits .f32 = 32 ∨ (Rect.block (s := S8x4096x2048) S1x4096x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S8x1024x2048.size a
  hwx0_4 : ∀ i : grid0.Coords, EltTy.bits .f32 = 32 ∨ (Rect.block (s := S8x1024x2048) S1x1024x256.size (cc0_transform_4 i) (hinb0_4 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf

abbrev win0_0 : Pipeline.Window sig grid0 :=
  Pipeline.Window.ofSpec (Memref.whole main_v1) S1x1024x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S8x1024x2048 : Shape := ⟨3, ![8, 1024, 2048]⟩
abbrev S8x1024x8192 : Shape := ⟨3, ![8, 1024, 8192]⟩
abbrev S8x1024x4096 : Shape := ⟨3, ![8, 1024, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8x4096x2048, .f32⟩
  | .hbm, ⟨3, _⟩ => ⟨S8x1024x2048, .f32⟩
  | .hbm, ⟨4, _⟩ => ⟨S8x1024x8192, .f32⟩
  | .hbm, ⟨5, _⟩ => ⟨S8x1024x4096, .f32⟩
  | .hbm, ⟨6, _⟩ => ⟨S8x1024x4096, .f32⟩
  | .hbm, ⟨7, _⟩ => ⟨S8x1024x4096, .f32⟩
  | .hbm, ⟨8, _⟩ => ⟨S8x1024x4096, .f32⟩
  | .hbm, ⟨9, _⟩ => ⟨S_, .f32⟩
  | .hbm, ⟨10, _⟩ => ⟨S8x1024x4096, .f32⟩
  | .hbm, ⟨11, _⟩ => ⟨S8x1024x4096, .f32⟩
  | .hbm, ⟨12, _⟩ => ⟨S_, .f32⟩
  | .hbm, ⟨13, _⟩ => ⟨S8x1024x4096, .f32⟩
  | .hbm, ⟨14, _⟩ => ⟨S8x1024x4096, .f32⟩
  | .hbm, ⟨15, _⟩ => ⟨S8x1024x4096, .f32⟩
  | .hbm, ⟨16, _⟩ => ⟨S8x1024x4096, .f32⟩
  | .hbm, ⟨17, _⟩ => ⟨S8x1024x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  shapeCasts_S8192x2048_S8x1024x2048 : S8192x2048.ShapeCasts S8x1024x2048
  slices_S8x1024x8192_S8x1024x4096_0_0_0 : S8x1024x8192.Slices ![0, 0, 0] S8x1024x4096
  slices_S8x1024x8192_S8x1024x4096_0_0_4096 : S8x1024x8192.Slices ![0, 0, 4096] S8x1024x4096
  bcast_S_S8x1024x4096 : S_.BroadcastsInDim S8x1024x4096 (![] : Fin 0 → Fin S8x1024x4096.rank)
  shapeCasts_S8x1024x2048_S8192x2048 : S8x1024x2048.ShapeCasts S8192x2048
  dot_S8x1024x2048_S8x2048x8192_S8x1024x8192_2_1_1_2_0_0_wf : DotDims.WF S8x1024x2048 S8x2048x8192 S8x1024x8192 [2] [1] [1] [2] [0] [0]
  dot_S8x1024x4096_S8x4096x2048_S8x1024x2048_2_1_1_2_0_0_wf : DotDims.WF S8x1024x4096 S8x4096x2048 S8x1024x2048 [2] [1] [1] [2] [0] [0]

variable [Facts₀]

def dot_S8x1024x2048_S8x2048x8192_S8x1024x8192_2_1_1_2_0_0 : DotDims S8x1024x2048 S8x2048x8192 S8x1024x8192 where
  lhsContracting := [2]
  rhsContracting := [1]
  lhsNonContracting := [1]
  rhsNonContracting := [2]
  lhsBatch := [0]
  rhsBatch := [0]
  wf := dot_S8x1024x2048_S8x2048x8192_S8x1024x8192_2_1_1_2_0_0_wf
def dot_S8x1024x4096_S8x4096x2048_S8x1024x2048_2_1_1_2_0_0 : DotDims S8x1024x4096 S8x4096x2048 S8x1024x2048 where
  lhsContracting := [2]
  rhsContracting := [1]
  lhsNonContracting := [1]
  rhsNonContracting := [2]
  lhsBatch := [0]
  rhsBatch := [0]
  wf := dot_S8x1024x4096_S8x4096x2048_S8x1024x2048_2_1_1_2_0_0_wf

class Facts : Prop extends Facts₀ where

variable [Facts]
-- ==== Proof.FrBasicsB.lean ====
/-
  The region of the fused expert layer, seen from @main: the contents every buffer holds when the region is
  entered (after the reshape of the activations and their change of format), @main as "lines, region, lines",
  each window's block at a grid point, the two branch conditions of the body in closed form over the 8 x 24
  grid (a point is t = 24 e + k: the gate/up phase is k < 16, the down phase 16 <= k), and where the output
  window is idle.
-/
import proofs.«164289_j53798760349861_2_alg».proof.Proof.Gen.Kernel.Launch
import proofs.«164289_j53798760349861_2_alg».proof.Proof.Gen.Kernel.Skeleton
import proofs.«164289_j53798760349861_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents after the two lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two lines before the region, the region, and the line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (show List.Forall _ [hostOps0] from hostOps0_sub)
    (show List.Forall _ [hostOps0] from hostOps0_fresh) main_chain

/-- The three argument arrays are as launched when the region is entered: the lines before it write other buffers. -/
theorem V_main_arg0 (c : Dev nD) : V m c main_arg0 = m ((c : Thread nD τ).loc main_arg0) := by
  dsimp only [V, V0]; simp only [hostOps0, List.flatten_cons, List.flatten_nil, List.append_nil]; after_results
theorem V_main_arg1 (c : Dev nD) : V m c main_arg1 = m ((c : Thread nD τ).loc main_arg1) := by
  dsimp only [V, V0]; simp only [hostOps0, List.flatten_cons, List.flatten_nil, List.append_nil]; after_results
theorem V_main_arg2 (c : Dev nD) : V m c main_arg2 = m ((c : Thread nD τ).loc main_arg2) := by
  dsimp only [V, V0]; simp only [hostOps0, List.flatten_cons, List.flatten_nil, List.append_nil]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before_in_of {c : Dev nD} (dat : Dat τ (Elt F) Unit ℕ (UR sig nD τ) ℕ cfg0 c) (w : Fin cfg0.W)
    (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hA : dat.A w = V m c (Pipeline.arrRef spec0 w))
    (hafter : ∀ t, (cfg0.win w).cut (cfg0.grid.coords t) (dat.after w t) = dat.blockOf w t) (t : Fin cfg0.N) (d) :
    dat.before w t d = dat.fetched w t d :=
  dat.before_in_eq_fetched w hw hlive hclip hafter t d

/-! ## The body's two phases, decided over the grid -/

/-- The gate/up phase: the first sixteen steps of each expert. -/
theorem hcondA : ∀ t : Fin cfg0.N, k0_cond1 (grid0.coords t) = 1#1 ↔ t.val % 24 < 16 :=
  (by decide +kernel : ∀ t : Fin grid0.N, k0_cond1 (grid0.coords t) = 1#1 ↔ t.val % 24 < 16)
/-- The down phase: the last eight. -/
theorem hcondB : ∀ t : Fin cfg0.N, k0_cond2 (grid0.coords t) = 1#1 ↔ 16 ≤ t.val % 24 :=
  (by decide +kernel : ∀ t : Fin grid0.N, k0_cond2 (grid0.coords t) = 1#1 ↔ 16 ≤ t.val % 24)

/-- The column offset of the hidden tile stored at a gate/up step. -/
theorem hoff : ∀ t : Fin cfg0.N, k0_off1 (grid0.coords t) = ![0, 256 * (t.val % 24)] :=
  (by decide +kernel : ∀ t : Fin grid0.N, k0_off1 (grid0.coords t) = ![0, 256 * (t.val % 24)])

/-- The inputs are never idle; the output is idle exactly in the gate/up phase, and is not written back there. -/
theorem live0 : ∀ i, cfg0.idle 0 i = false := fun _ => rfl
theorem live1 : ∀ i, cfg0.idle 1 i = false := fun _ => rfl
theorem live2 : ∀ i, cfg0.idle 2 i = false := fun _ => rfl
theorem live3 : ∀ i, cfg0.idle 3 i = false := fun _ => rfl
theorem idle4_A : ∀ t : Fin cfg0.N, t.val % 24 < 16 → cfg0.idle 4 (grid0.coords t) = true :=
  (by decide +kernel : ∀ t : Fin grid0.N, t.val % 24 < 16 → cfg0.idle 4 (grid0.coords t) = true)
theorem noFlush4_A : ∀ t : Fin cfg0.N, t.val % 24 < 16 → (cfg0.win 4).flush t = false :=
  (by decide +kernel : ∀ t : Fin grid0.N, t.val % 24 < 16 → win0_4.flush t = false)
theorem live4_B : ∀ t : Fin cfg0.N, 16 ≤ t.val % 24 → cfg0.idle 4 (grid0.coords t) = false :=
  (by decide +kernel : ∀ t : Fin grid0.N, 16 ≤ t.val % 24 → cfg0.idle 4 (grid0.coords t) = false)
theorem flush4_B : ∀ t : Fin cfg0.N, 16 ≤ t.val % 24 → (cfg0.win 4).flush t = true :=
  (by decide +kernel : ∀ t : Fin grid0.N, 16 ≤ t.val % 24 → win0_4.flush t = true)

/-! ## The staging memrefs and the scratch -/

abbrev ms0 (t : Fin cfg0.N) : Memref sig .tc .vmem S1x1024x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x4096x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x256 .f32 := win0_4.stage (cfg0.slots t 4)
abbrev hs4 (t : Fin cfg0.N) : (ms4 t).IsWhole := hstage0_4 ((cfg0.slots t 4).cast nbuf0_4)
/-- The hidden-activation scratch: a whole scoped buffer of the kernel's own, carried from point to point. -/
abbrev scM : Memref sig .tc .vmem S1024x4096 .bf16 := Memref.whole cc0_scratch0

/-- What the region hands the body besides the windows: the scratch at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Fr

end
-- ==== Proof.FrRunsB.lean ====
/-
  The body of the fused expert layer run once in each of its two phases, on any whole staging memrefs.
  Gate/up phase (k < 16): it loads the token block and the two weight tiles, and stores one 1024 x 256 tile of
  the hidden activations into the scratch at column 256 k: afterwards the scratch holds that tile there and what
  it held before everywhere else; every other buffer is left as found.
  Down phase (16 <= k): it loads the down-weight tile and the whole scratch, and stores their product over the
  whole output tile; the scratch and the inputs are left as found.
-/
import proofs.«164289_j53798760349861_2_alg».proof.Proof.FrBasicsB
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := by funext a; fin_cases a <;> rfl
theorem hz2 : (![0, 0] : Fin 2 → Nat) = fun _ => 0 := by funext a; fin_cases a <;> rfl

/-- The rectangle of the scratch a gate/up step stores its tile through. -/
abbrev tileRect (i : grid0.Coords) (hc1 : k0_cond1 i = 1#1) : Rect S1024x4096 :=
  Rect.unit (s := S1024x4096) (k0_off1 i) S1024x256.size (Gen.k0_off1_inb i hc1)

/-- A whole-buffer load of a whole memref at contents `x` reads `x`. -/
theorem readAt_whole {sp : Space} {S : Shape} {e : EltTy} {a : Memref sig .tc sp S e} (ha : a.IsWhole) {off : Fin S.rank → Nat}
    (h : off = fun _ => 0) (inb : ∀ a, off a + S.size a ≤ S.size a) (x : S.Idx → Elt F e) :
    View.readAt (Elt F) a.view (Rect.unit (s := S) off S.size inb).toLoadRect (ha.unread x) = x := by
  rw [View.readAt_eq_ld, ha.read_unread, View.ld_unit_zero h inb]

set_option maxHeartbeats 2000000 in
/-- The gate/up phase. -/
theorem runA (c : Dev nD) (i : grid0.Coords)
    (arg2 : Memref sig .tc .vmem S1x1024x2048 .bf16) (harg2 : arg2.IsWhole) (arg3 : Memref sig .tc .vmem S1x2048x256 .f32) (harg3 : arg3.IsWhole)
    (arg4 : Memref sig .tc .vmem S1x2048x256 .f32) (harg4 : arg4.IsWhole) (arg5 : Memref sig .tc .vmem S1x4096x256 .f32) (harg5 : arg5.IsWhole)
    (arg6 : Memref sig .tc .vmem S1x1024x256 .f32) (harg6 : arg6.IsWhole) (arg7 : Memref sig .tc .vmem S1024x4096 .bf16) (harg7 : arg7.IsWhole)
    (hc1 : k0_cond1 i = 1#1) (hc2 : ¬ k0_cond2 i = 1#1)
    (x0 : Vec F S1x1024x2048 .bf16) (x1 x2 : Vec F S1x2048x256 .f32) (x3 : Vec F S1x4096x256 .f32) (x4 : Vec F S1x1024x256 .f32)
    (xs : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ X' : Vec F S1024x4096 .bf16, ⌜(∀ x, X' ((tileRect i hc1).emb x) = k0_pay1 x0 x1 x2 x) ∧ (∀ y, y ∉ (tileRect i hc1).set → X' y = xs y)⌝
                ∗ owns (c : Thread nD τ) arg7 fullShare X')) -∗ K ⟨⟩))
      ⊢ wp frame (wpE (defs₀ (F := F)) Variants.none c none) E (cc0__fused_kernel i arg2 harg2 arg3 harg3 arg4 harg4 arg5 harg5 arg6 harg6 arg7 harg7) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hc1 | exact hc2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  iexists (arg7.view.read (Elt F) (arg7.view.writes (Elt F) (harg7.unread xs)
    [⟨tileRect i hc1, k0_pay1 x0 x1 x2⟩]))
  isplitr
  · ipureintro
    refine ⟨fun x => ?_, fun y hy => ?_⟩
    · exact View.read_writes_cons_emb _ _ _ _ _ x
    · rw [View.writes_cons, View.read_slice_write_of_not_mem _ _ _ _ (by rwa [Rect.map_emb_univ]), View.writes_nil, harg7.read_unread]
  iexists _; isplitr; · ipureintro; rfl
  rw [readAt_whole harg2 hz3, readAt_whole harg3 hz3, readAt_whole harg4 hz3]
  iexact HS

set_option maxHeartbeats 2000000 in
/-- The down phase. -/
theorem runB (c : Dev nD) (i : grid0.Coords)
    (arg2 : Memref sig .tc .vmem S1x1024x2048 .bf16) (harg2 : arg2.IsWhole) (arg3 : Memref sig .tc .vmem S1x2048x256 .f32) (harg3 : arg3.IsWhole)
    (arg4 : Memref sig .tc .vmem S1x2048x256 .f32) (harg4 : arg4.IsWhole) (arg5 : Memref sig .tc .vmem S1x4096x256 .f32) (harg5 : arg5.IsWhole)
    (arg6 : Memref sig .tc .vmem S1x1024x256 .f32) (harg6 : arg6.IsWhole) (arg7 : Memref sig .tc .vmem S1024x4096 .bf16) (harg7 : arg7.IsWhole)
    (hc1 : ¬ k0_cond1 i = 1#1) (hc2 : k0_cond2 i = 1#1)
    (x0 : Vec F S1x1024x2048 .bf16) (x1 x2 : Vec F S1x2048x256 .f32) (x3 : Vec F S1x4096x256 .f32) (x4 : Vec F S1x1024x256 .f32)
    (xs : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay2 x3 xs)
            ∗ owns (c : Thread nD τ) arg7 fullShare xs) -∗ K ⟨⟩))
      ⊢ wp frame (wpE (defs₀ (F := F)) Variants.none c none) E (cc0__fused_kernel i arg2 harg2 arg3 harg3 arg4 harg4 arg5 harg5 arg6 harg6 arg7 harg7) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hc1 | exact hc2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]
  · iexists _; isplitr; swap; · iexact H4
    ipureintro
    rw [readAt_whole harg5 hz3, readAt_whole harg7 hz2]
    rw [View.read_writes_eq_canon _ _ _ (fun y => ⟨_, List.mem_singleton_self _, View.mem_set_unit_zero hz3 Gen.inb_S1x1024x256_S1x1024x256_0_0_0 y⟩)]
    exact View.canon_unit_zero hz3 Gen.inb_S1x1024x256_S1x1024x256_0_0_0 _
  iexists _; isplitr; · ipureintro; exact harg7.read_unread _
  iexact HS

end Cert.Kernel.Fr

end
-- ==== Proof.FrBodyB.lean ====
/-
  The proof data of the fused expert layer's pipeline and its body obligation.

  A grid point is t = 24 e + k. In the gate/up phase (k < 16) step k stores hidden columns [256 k, 256 k + 256) of
  expert e into the scratch; in the down phase (16 <= k) the whole scratch is read. So in closed form, with no
  recursion over the points: column f of expert e's hidden activations is the tile stored at point
  24 e + f / 256, read at column f % 256 (`hidOf`). The invariant after point t says exactly that of the columns
  stored so far in this expert's phase: every column below 256 * min (k + 1) 16 (`Inv`). At the first down step
  all 4096 columns are right, so the down product is taken of `hidOf` itself, whatever the scratch held when the
  region was entered.
-/
import proofs.«164289_j53798760349861_2_alg».proof.Proof.FrRunsB
import Idealize.ShloMosaic.Lib.ValueIdx

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The hidden activations in closed form -/

/-- The hidden tile a gate/up step at point `s` computes from its three input blocks. -/
def tileVal (c : Dev nD) (s : Fin cfg0.N) : Vec F S1024x256 .bf16 :=
  k0_pay1 (iblk m c 0 s) (iblk m c 1 s) (iblk m c 2 s)

/-- The point of `t`'s expert whose gate/up step stores the hidden column of `y`. -/
def tileAt (t : Fin cfg0.N) (y : S1024x4096.Idx) : Fin cfg0.N :=
  ⟨24 * (t.val / 24) + (y 1).val / 256, by
    have h1 : t.val < 192 := lt_of_lt_of_eq t.isLt (show cfg0.N = 192 from N_0)
    have h2 : (y 1).val < 4096 := ValueIdx.idx2_lt1 y
    show _ < grid0.N; rw [N_0]; omega⟩

/-- The column of `y` inside its tile. -/
def inTile (y : S1024x4096.Idx) : S1024x256.Idx :=
  ValueIdx.ix2 (y 0) ⟨(y 1).val % 256, Nat.mod_lt _ (by decide)⟩

/-- The hidden activations of `t`'s expert, all 4096 columns. -/
def hidOf (c : Dev nD) (t : Fin cfg0.N) : Vec F S1024x4096 .bf16 :=
  fun y => tileVal m c (tileAt t y) (inTile y)

/-- They depend on the point through its expert only. -/
theorem hidOf_congr (c : Dev nD) (t t' : Fin cfg0.N) (h : t.val / 24 = t'.val / 24) : hidOf m c t = hidOf m c t' := by
  funext y
  have e : tileAt t y = tileAt t' y := Fin.ext (by simp only [tileAt]; rw [h])
  unfold hidOf; rw [e]

/-- What is known of the scratch after point `n`: the columns stored so far in this expert's phase. -/
def Inv (c : Dev nD) (n : ℕ) (hn : n < cfg0.N) (X : Vec F S1024x4096 .bf16) : Prop :=
  ∀ y : S1024x4096.Idx, (y 1).val < 256 * min (n % 24 + 1) 16 → X y = hidOf m c ⟨n, hn⟩ y

/-- The region invariant before position `n`: the scratch at anything before the first point, afterwards at
    contents of which `Inv` holds. -/
def PhiS (c : Dev nD) : (n : ℕ) → n ≤ cfg0.N → sProp 𝕄
  | 0, _ => iprop(∃ d, owns (c : Thread nD τ) scM fullShare d)
  | n + 1, hn => iprop(∃ X, ⌜Inv m c n hn X⌝ ∗ owns (c : Thread nD τ) scM fullShare X)

theorem PhiS_succ (c : Dev nD) (n : ℕ) (hn : n < cfg0.N) :
    PhiS m c (n + 1) hn = iprop(∃ X, ⌜Inv m c n hn X⌝ ∗ owns (c : Thread nD τ) scM fullShare X) := rfl

/-- Either way the scratch is held at some contents, of which the previous point's invariant holds if there was one. -/
theorem PhiS_pre (c : Dev nD) (n : ℕ) (h : n ≤ cfg0.N) :
    PhiS m c n h ⊢ iprop(∃ xs, ⌜∀ hz : n ≠ 0, Inv m c (n - 1) (Nat.lt_of_lt_of_le (Nat.sub_lt (Nat.pos_of_ne_zero hz) Nat.one_pos) h) xs⌝
      ∗ owns (c : Thread nD τ) scM fullShare xs) := by
  cases n with
  | zero =>
    show iprop(∃ d, owns (c : Thread nD τ) scM fullShare d) ⊢ _
    iintro ⟨%d, H⟩; iexists d; isplitr
    · ipureintro; intro hz; exact absurd rfl hz
    iexact H
  | succ n =>
    show iprop(∃ X, ⌜Inv m c n h X⌝ ∗ owns (c : Thread nD τ) scM fullShare X) ⊢ _
    iintro ⟨%X, %hX, H⟩; iexists X; isplitr
    · ipureintro; intro _; exact hX
    iexact H

/-- The kernel's scoped buffers beside the staging buffers: the scratch, at some contents. -/
theorem scoped_eq (c : Dev nD) :
    (Pipeline.scopedRest spec0 c : sProp 𝕄) = iprop(∃ d, owns (c : Thread nD τ) scM fullShare d) := by
  rw [scopedRest0_eq]; simp only [scM, owns_whole]; try rfl

/-! ## The pipeline's proof data -/

/-- The arrays as the region finds them; after the body each input's buffer at its block and the output's at the
    down product of its weight tile with the expert's hidden activations; the two windows on the packed gate/up
    weights hold half of that array each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay2 (iblk m c 3 t) (hidOf m c t)
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay2 (iblk m c 3 t) (hidOf m c t) := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The invariant through one step -/

theorem off0 (t : Fin cfg0.N) : k0_off1 (grid0.coords t) 0 = 0 := by rw [hoff t]; rfl
theorem off1 (t : Fin cfg0.N) : k0_off1 (grid0.coords t) 1 = 256 * (t.val % 24) := by rw [hoff t]; rfl

/-- A gate/up step: the stored tile is this step's columns of `hidOf`, and the columns stored before are kept. -/
theorem inv_stepA (c : Dev nD) (t : Fin cfg0.N) (hk : t.val % 24 < 16) (hc1 : k0_cond1 (grid0.coords t) = 1#1)
    (xs X' : Vec F S1024x4096 .bf16)
    (hxs : ∀ hz : t.val ≠ 0, Inv m c (t.val - 1) (Nat.lt_of_lt_of_le (Nat.sub_lt (Nat.pos_of_ne_zero hz) Nat.one_pos) (Nat.le_of_lt t.isLt)) xs)
    (hX' : (∀ x, X' ((tileRect (grid0.coords t) hc1).emb x) = k0_pay1 (iblk m c 0 t) (iblk m c 1 t) (iblk m c 2 t) x)
      ∧ (∀ y, y ∉ (tileRect (grid0.coords t) hc1).set → X' y = xs y)) :
    Inv m c t.val t.isLt X' := by
  intro y hy
  have hN : t.val < 192 := lt_of_lt_of_eq t.isLt (show cfg0.N = 192 from N_0)
  have hcol : (y 1).val < 4096 := ValueIdx.idx2_lt1 y
  have hrow : (y 0).val < 1024 := ValueIdx.idx2_lt0 y
  have hmin : min (t.val % 24 + 1) 16 = t.val % 24 + 1 := by omega
  rw [hmin] at hy
  by_cases hin : 256 * (t.val % 24) ≤ (y 1).val
  · have hmem : y ∈ (tileRect (grid0.coords t) hc1).set := Rect.mem_set_unit.mpr fun a => by
      match a with
      | ⟨0, _⟩ => rw [show (⟨0, _⟩ : Fin S1024x4096.rank) = 0 from rfl, off0]; exact ⟨Nat.zero_le _, by show (y 0).val < 0 + 1024; omega⟩
      | ⟨1, _⟩ => rw [show (⟨1, _⟩ : Fin S1024x4096.rank) = 1 from rfl, off1]; exact ⟨hin, by show (y 1).val < 256 * (t.val % 24) + 256; omega⟩
    obtain ⟨x, rfl⟩ := (tileRect (grid0.coords t) hc1).exists_idx_of_mem hmem
    have e1 : (((tileRect (grid0.coords t) hc1).emb x) 1 : ℕ) = 256 * (t.val % 24) + (x 1).val := by
      rw [Rect.emb_apply]; show k0_off1 (grid0.coords t) 1 + 1 * (x 1).val = _; rw [off1]; omega
    have e0 : (((tileRect (grid0.coords t) hc1).emb x) 0 : ℕ) = (x 0).val := by
      rw [Rect.emb_apply]; show k0_off1 (grid0.coords t) 0 + 1 * (x 0).val = _; rw [off0]; omega
    have hx1 : (x 1).val < 256 := ValueIdx.idx2_lt1 x
    refine (hX'.1 x).trans ?_
    have h1 : tileAt ⟨t.val, t.isLt⟩ ((tileRect (grid0.coords t) hc1).emb x) = t :=
      Fin.ext (by show 24 * (t.val / 24) + (((tileRect (grid0.coords t) hc1).emb x) 1 : ℕ) / 256 = t.val; rw [e1]; omega)
    have h2 : inTile ((tileRect (grid0.coords t) hc1).emb x) = x := by
      refine Eq.trans ?_ (ValueIdx.eq_ix2 x).symm
      have a0 : ((tileRect (grid0.coords t) hc1).emb x) 0 = x 0 := Fin.ext e0
      have a1 : (⟨(((tileRect (grid0.coords t) hc1).emb x) 1).val % 256, Nat.mod_lt _ (by decide)⟩ : Fin 256) = x 1 :=
        Fin.ext (by show (((tileRect (grid0.coords t) hc1).emb x) 1 : ℕ) % 256 = (x 1).val; rw [e1]; omega)
      unfold inTile; rw [a0, a1]; rfl
    show _ = tileVal m c (tileAt ⟨t.val, t.isLt⟩ ((tileRect (grid0.coords t) hc1).emb x)) (inTile ((tileRect (grid0.coords t) hc1).emb x))
    rw [h1, h2]; rfl
  · have hnot : y ∉ (tileRect (grid0.coords t) hc1).set := fun h => by
      have h1 := (Rect.mem_set_unit.mp h) 1
      rw [off1] at h1; exact hin h1.1
    have hz : t.val ≠ 0 := by intro h; rw [h] at hin; omega
    rw [hX'.2 y hnot, hxs hz y (by omega)]
    exact congrFun (hidOf_congr m c _ _ (by show (t.val - 1) / 24 = t.val / 24; omega)) y

/-- By a down step every column has been stored: the scratch holds the expert's hidden activations. -/
theorem inv_full (c : Dev nD) (t : Fin cfg0.N) (hk : 16 ≤ t.val % 24) (xs : Vec F S1024x4096 .bf16)
    (hxs : ∀ hz : t.val ≠ 0, Inv m c (t.val - 1) (Nat.lt_of_lt_of_le (Nat.sub_lt (Nat.pos_of_ne_zero hz) Nat.one_pos) (Nat.le_of_lt t.isLt)) xs) :
    xs = hidOf m c t := by
  funext y
  have hcol : (y 1).val < 4096 := ValueIdx.idx2_lt1 y
  have hz : t.val ≠ 0 := by intro h; rw [h] at hk; omega
  rw [hxs hz y (by omega)]
  exact congrFun (hidOf_congr m c _ _ (by show (t.val - 1) / 24 = t.val / 24; omega)) y

theorem inv_keepB (c : Dev nD) (t : Fin cfg0.N) : Inv m c t.val t.isLt (hidOf m c t) := fun y _ => rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves0 (c : Dev nD) (t : Fin cfg0.N) : (dats m 0 c).leavesExact 0 t = owns (c : Thread nD τ) (ms0 t) fullShare (iblk m c 0 t) := by
  rw [← after0]
theorem leaves1 (c : Dev nD) (t : Fin cfg0.N) : (dats m 0 c).leavesExact 1 t = owns (c : Thread nD τ) (ms1 t) fullShare (iblk m c 1 t) := by
  rw [← after1]
theorem leaves2 (c : Dev nD) (t : Fin cfg0.N) : (dats m 0 c).leavesExact 2 t = owns (c : Thread nD τ) (ms2 t) fullShare (iblk m c 2 t) := by
  rw [← after2]
theorem leaves3 (c : Dev nD) (t : Fin cfg0.N) : (dats m 0 c).leavesExact 3 t = owns (c : Thread nD τ) (ms3 t) fullShare (iblk m c 3 t) := by
  rw [← after3]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, PhiS_castSucc m c t]
  have hN : t.val < 192 := lt_of_lt_of_eq t.isLt (show cfg0.N = 192 from N_0)
  by_cases hk : t.val % 24 < 16
  · have hc1 : k0_cond1 (grid0.coords t) = 1#1 := (hcondA t).mpr hk
    have hc2 : ¬ k0_cond2 (grid0.coords t) = 1#1 := fun h => by have := (hcondB t).mp h; omega
    rw [Dat.leavesExact_idle (dats m 0 c) 4 t (idle4_A t hk) (noFlush4_A t hk)]
    iintro ⟨HΦ, Ho, ⟨%d0, H0⟩, ⟨%d1, H1⟩, ⟨%d2, H2⟩, ⟨%d3, H3⟩, ⟨%d4, H4⟩⟩
    ihave HΦ' := (PhiS_pre m c t.val (Nat.le_of_lt t.isLt)) $$ HΦ
    icases HΦ' with ⟨%xs, %hxs, HS⟩
    iapply (runA c (grid0.coords t) (ms0 t) (hs0 t) (ms1 t) (hs1 t) (ms2 t) (hs2 t) (ms3 t) (hs3 t) (ms4 t) (hs4 t) scM (Memref.isWhole_whole _) hc1 hc2
      (iblk m c 0 t) (iblk m c 1 t) (iblk m c 2 t) (iblk m c 3 t) ((dats m 0 c).before 4 t d4) xs Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%X', %hX', HS⟩⟩
    isplitl [HS]
    · iexists X'; isplitr
      · ipureintro; exact inv_stepA m c t hk hc1 xs X' hxs hX'
      iexact HS
    isplitl [Ho]; · iexact Ho
    isplitl [H0]; · iexact H0
    isplitl [H1]; · iexact H1
    isplitl [H2]; · iexact H2
    isplitl [H3]; · iexact H3
    iexists d4; iexact H4
  · have hk' : 16 ≤ t.val % 24 := Nat.le_of_not_lt hk
    have hc1 : ¬ k0_cond1 (grid0.coords t) = 1#1 := fun h => hk ((hcondA t).mp h)
    have hc2 : k0_cond2 (grid0.coords t) = 1#1 := (hcondB t).mpr hk'
    rw [show (dats m 0 c).leavesExact 4 t = owns (c : Thread nD τ) (ms4 t) fullShare ((dats m 0 c).after 4 t) from by
      unfold Dat.leavesExact; rw [live4_B t hk'], after4]
    iintro ⟨HΦ, Ho, ⟨%d0, H0⟩, ⟨%d1, H1⟩, ⟨%d2, H2⟩, ⟨%d3, H3⟩, ⟨%d4, H4⟩⟩
    ihave HΦ' := (PhiS_pre m c t.val (Nat.le_of_lt t.isLt)) $$ HΦ
    icases HΦ' with ⟨%xs, %hxs, HS⟩
    obtain rfl := inv_full m c t hk' xs hxs
    iapply (runB c (grid0.coords t) (ms0 t) (hs0 t) (ms1 t) (hs1 t) (ms2 t) (hs2 t) (ms3 t) (hs3 t) (ms4 t) (hs4 t) scM (Memref.isWhole_whole _) hc1 hc2
      (iblk m c 0 t) (iblk m c 1 t) (iblk m c 2 t) (iblk m c 3 t) ((dats m 0 c).before 4 t d4) (hidOf m c t) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS]
    · iexists (hidOf m c t); isplitr
      · ipureintro; exact inv_keepB m c t
      iexact HS
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the region hands the body besides the windows is the invariant before the first point, -/
theorem hin (c : Dev nD) : Pipeline.scopedRest spec0 c ⊢ (dats m 0 c).Φ 0 := by
  rw [show (dats m 0 c).Φ 0 = PhiS m c 0 (Nat.zero_le _) from rfl, scoped_eq]
  exact Idealize.SL.BI.Entails.refl _

/-- and after the last point the invariant gives it back, the scratch's contents forgotten. -/
theorem hout (c : Dev nD) : (dats m 0 c).Φ (Fin.last cfg0.N) ⊢ Pipeline.scopedRest spec0 c := by
  rw [scoped_eq]
  refine (show (dats m 0 c).Φ (Fin.last cfg0.N) ⊢ _ from PhiS_pre m c (Fin.last cfg0.N).val (Nat.le_of_lt_succ (Fin.last cfg0.N).isLt)).trans ?_
  iintro ⟨%xs, -, H⟩; iexists xs; iexact H

end Cert.Kernel.Fr

end
-- ==== Proof.FrTailB.lean ====
/-
  The region of the fused expert layer, seen from @main, at its two ends: how the buffers the launch holds
  become the windows' arrays when the region is entered (the packed gate/up weights are one array read
  through two windows, so its one full share is halved between them), and the one line of @main after the
  region, the reshape of the region's result [8, 1024, 2048] to [8192, 2048].
-/
import proofs.«164289_j53798760349861_2_alg».proof.Proof.FrBasicsB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays when the region is entered -/

/-- The four distinct buffers behind the five windows, each whole at the full share, are the windows' arrays at the
    windows' shares: the packed weights, read through two windows, are held once and split into their two halves. -/
theorem arrays_of_arrBufs {c : Dev nD} (dat : Dat τ (Elt F) Unit ℕ (UR sig nD τ) ℕ cfg0 c)
    (hq0 : dat.q 0 = fullShare) (hq1 : dat.q 1 = fullShare.left) (hq2 : dat.q 2 = fullShare.right) (hq3 : dat.q 3 = fullShare)
    (Vc : (b : Ref sig .tc) → Buf (Elt F) ((c : Thread nD τ).loc b))
    (Fw : (w : Fin cfg0.W) → Buf (Elt F) ((cfg0.win w).arr.view.loc (c : Thread nD τ)))
    (hF : ∀ w, Fw w = Vc (Pipeline.arrRef spec0 w)) :
    (Pipeline.arrBufs spec0 c Vc : sProp 𝕄) ⊢ dat.arrays Fw := by
  have s0 : dat.share 0 = fullShare := by unfold Dat.share; exact (if_neg (by decide)).trans hq0
  have s1 : dat.share 1 = fullShare.left := by unfold Dat.share; exact (if_neg (by decide)).trans hq1
  have s2 : dat.share 2 = fullShare.right := by unfold Dat.share; exact (if_neg (by decide)).trans hq2
  have s3 : dat.share 3 = fullShare := by unfold Dat.share; exact (if_neg (by decide)).trans hq3
  have s4 : dat.share 4 = fullShare := by unfold Dat.share; exact if_pos (by decide)
  unfold Pipeline.arrBufs Dat.arrays
  have e : (bigSep (Finset.univ.image (Pipeline.arrRef spec0)) fun b => (((c : Thread nD τ).loc b) ↦{fullShare} Vc b : sProp 𝕄))
      = iprop((((c : Thread nD τ).loc main_v1) ↦{fullShare} Vc main_v1) ∗ (((c : Thread nD τ).loc main_arg1) ↦{fullShare} Vc main_arg1)
          ∗ (((c : Thread nD τ).loc main_arg2) ↦{fullShare} Vc main_arg2) ∗ (((c : Thread nD τ).loc main_v2) ↦{fullShare} Vc main_v2)) :=
    bigSep_eq_bigSepL_of_eq [main_v1, main_arg1, main_arg2, main_v2] (by decide) (by decide) _
  rw [e, bigSep_W0]
  rw [(arr_whole0 0).set_eq_univ, (arr_whole0 1).set_eq_univ, (arr_whole0 3).set_eq_univ,
    (arr_whole0 4).set_eq_univ, s0, s1, s2, s3, s4, hF 0, hF 1, hF 2, hF 3, hF 4]
  iintro ⟨H0, H1, H3, H4⟩
  ihave H1' := (pointsTo_share (PosShare.mem_left_op_right fullShare)).1 $$ H1
  icases H1' with ⟨Hl, Hr⟩
  isplitl [H0]; · iexact H0
  isplitl [Hl]; · iexact Hl
  isplitl [Hr]; · iexact Hr
  isplitl [H3]; · iexact H3
  iexact H4

/-! ## The line after the region -/

open Classical in
/-- The buffer contents the line after the region starts from: the region's result buffer at `X`, every other
    buffer as it was when the region was entered. -/
def Wexit (c : Dev nD) (X : Buf (Elt F) ((c : Thread nD τ).loc main_v2)) : Valuation τ sig (Elt F) := fun b =>
  if h : (Proc.devRef .tc main_v2 : DevRef τ sig) = b then cast (congrArg (fun b' : DevRef τ sig => b'.ty.Contents (Elt F)) h) X
  else V0 m c b

theorem Wexit_main_v2 (c : Dev nD) (X : Buf (Elt F) ((c : Thread nD τ).loc main_v2)) :
    Wexit m c X (Proc.devRef .tc main_v2) = X := by
  unfold Wexit; rw [dif_pos rfl]; rfl

theorem Wexit_of_ne (c : Dev nD) (X : Buf (Elt F) ((c : Thread nD τ).loc main_v2)) (b : Ref sig .tc) (hb : main_v2 ≠ b) :
    Wexit m c X (Proc.devRef .tc b) = V0 m c (Proc.devRef .tc b) := by
  unfold Wexit; rw [dif_neg]; exact fun e => hb (Proc.devRef_injective _ e)

/-- What core `c`'s buffers hold after the line that follows the region, the region's result being `X`: the
    reshape of `X` in the program's result buffer, every other buffer unchanged. -/
def Vexit (c : Dev nD) (X : Buf (Elt F) ((c : Thread nD τ).loc main_v2)) (b : Ref sig .tc) : Buf (Elt F) ((c : Thread nD τ).loc b) :=
  StableHlo.after hostOps1 (Wexit m c X) (Proc.devRef .tc b)

/-- The program's result is the region's result, reshaped. -/
theorem Vexit_main_v3 (c : Dev nD) (X : Buf (Elt F) ((c : Thread nD τ).loc main_v2)) :
    Vexit m c X main_v3 = shapeCast _ X shapeCasts_S8x1024x2048_S8192x2048 := by
  unfold Vexit; simp only [hostOps1]; after_results; rw [Wexit_main_v2]; rfl

/-- The line leaves the other buffers as they were. -/
theorem Vexit_main_arg0 (c : Dev nD) (X : Buf (Elt F) ((c : Thread nD τ).loc main_v2)) :
    Vexit m c X main_arg0 = V m c main_arg0 := by
  unfold Vexit; simp only [hostOps1]; after_results; exact Wexit_of_ne m c X main_arg0 (by decide)
theorem Vexit_main_v0 (c : Dev nD) (X : Buf (Elt F) ((c : Thread nD τ).loc main_v2)) :
    Vexit m c X main_v0 = V m c main_v0 := by
  unfold Vexit; simp only [hostOps1]; after_results; exact Wexit_of_ne m c X main_v0 (by decide)
theorem Vexit_main_v2 (c : Dev nD) (X : Buf (Elt F) ((c : Thread nD τ).loc main_v2)) :
    Vexit m c X main_v2 = X := by
  unfold Vexit; simp only [hostOps1]; after_results; exact Wexit_main_v2 m c X

/-- The line after the region: holding the windows' arrays as the region left them and the other unscoped buffers
    as they were when it was entered, the reshape runs, and the continuation is reached with the program's result
    buffer at the reshape of the region's result. -/
theorem tail_line {c : Dev nD} (dat : Dat τ (Elt F) Unit ℕ (UR sig nD τ) ℕ cfg0 c)
    (Fw : (w : Fin cfg0.W) → Buf (Elt F) ((cfg0.win w).arr.view.loc (c : Thread nD τ)))
    (Q' : PUnit → sProp 𝕄) (𝒱₀ : Variants) :
    iprop((iprop(dat.arrays Fw ∗ Pipeline.unscopedRest spec0 c (Vexit m c (Fw 4))) -∗ Q' ⟨⟩)
        ∗ boundary (c : Thread nD τ) ∗ dat.arrays Fw ∗ Pipeline.unscopedRest spec0 c (V m c))
      ⊢ wp frame (wpE (Pipeline.defs (fun q => Pipeline.Cfg.toPCfg (Val := Elt F) (cfgs q)) defs₀) (Variants.lift 𝒱₀)
            (c : Thread nD τ) none) Set.univ (Pipeline.chain [StableHlo.seq hostOps1]) Q' := by
  have s4 : dat.share 4 = fullShare := by unfold Dat.share; exact if_pos (by decide)
  have hne : (Proc.devRef .tc main_v2 : DevRef τ sig) ∉ ({Proc.devRef .tc main_v3} : Finset (DevRef τ sig)) := by
    rw [Finset.mem_singleton]; exact StableHlo.devRef_ne_of_ne (by decide)
  have hheld : ∀ Wv : Valuation τ sig (Elt F),
      (StableHlo.held (c : Thread nD τ) {Proc.devRef .tc main_v2, Proc.devRef .tc main_v3} Wv : sProp 𝕄)
        = iprop((((c : Thread nD τ).loc main_v2) ↦{fullShare} Wv (Proc.devRef .tc main_v2))
            ∗ (((c : Thread nD τ).loc main_v3) ↦{fullShare} Wv (Proc.devRef .tc main_v3))) := by
    intro Wv; unfold StableHlo.held; rw [bigSep_insert hne, bigSep_singleton]; rfl
  rw [unscopedRest0_eq, unscopedRest0_eq, Vexit_main_arg0, Vexit_main_v0]
  unfold Dat.arrays
  rw [bigSep_W0, (arr_whole0 4).set_eq_univ, s4]
  have hW : (StableHlo.held (c : Thread nD τ) {Proc.devRef .tc main_v2, Proc.devRef .tc main_v3} (Wexit m c (Fw 4)) : sProp 𝕄)
      = iprop((((c : Thread nD τ).loc main_v2) ↦{fullShare} Fw 4) ∗ (((c : Thread nD τ).loc main_v3) ↦{fullShare} V m c main_v3)) := by
    rw [hheld, Wexit_main_v2, Wexit_of_ne m c (Fw 4) main_v3 (by decide)]
  have hW' : (StableHlo.held (c : Thread nD τ) {Proc.devRef .tc main_v2, Proc.devRef .tc main_v3}
        (StableHlo.after [hostOps1].flatten (Wexit m c (Fw 4))) : sProp 𝕄)
      = iprop((((c : Thread nD τ).loc main_v2) ↦{fullShare} Fw 4)
          ∗ (((c : Thread nD τ).loc main_v3) ↦{fullShare} Vexit m c (Fw 4) main_v3)) := by
    rw [hheld, show ([hostOps1] : List (List (HloOp τ sig (Elt F)))).flatten = hostOps1 from List.append_nil _]
    rw [show StableHlo.after hostOps1 (Wexit m c (Fw 4)) (Proc.devRef .tc main_v2) = Fw 4 from Vexit_main_v2 m c (Fw 4)]
    rfl
  have hsub : ∀ ops ∈ ([hostOps1] : List (List (HloOp τ sig (Elt F)))), ∀ op ∈ ops,
      op.bufs ⊆ ({Proc.devRef .tc main_v2, Proc.devRef .tc main_v3} : Finset (DevRef τ sig)) := by
    intro ops ho op h
    rw [List.mem_singleton] at ho; subst ho
    rw [List.mem_singleton] at h; subst h
    exact Finset.Subset.refl _
  have hfresh : ∀ ops ∈ ([hostOps1] : List (List (HloOp τ sig (Elt F)))), ∀ op ∈ ops, op.fresh = ∅ := by
    intro ops ho op h
    rw [List.mem_singleton] at ho; subst ho
    exact (List.forall_iff_forall_mem.mp hostOps1_fresh) op h
  iintro ⟨Hk, Hb, ⟨A0, A1, A2, A3, A4⟩, R0, R1, R3⟩
  rw [← List.append_nil ([StableHlo.seq hostOps1] : List (Prog _ PUnit))]
  iapply (Pipeline.wp_seqs_then (fun q => Pipeline.Cfg.toPCfg (Val := Elt F) (cfgs q)) defs₀ 𝒱₀ c
    {Proc.devRef .tc main_v2, Proc.devRef .tc main_v3} [] [hostOps1] hsub hfresh (Wexit m c (Fw 4))) $$ [Hb A4 R3]
  · rw [hW]
    isplitl [Hb]; · iexact Hb
    isplitl [A4]; · iexact A4
    iexact R3
  iintro Hb
  rw [Pipeline.chain_nil, wp_pure, hW']
  imodintro
  iapply Hk
  icases Hb with ⟨-, H2, H3⟩
  isplitl [A0 A1 A2 A3 H2]
  · isplitl [A0]; · iexact A0
    isplitl [A1]; · iexact A1
    isplitl [A2]; · iexact A2
    isplitl [A3]; · iexact A3
    iexact H2
  isplitl [R0]; · iexact R0
  isplitl [R1]; · iexact R1
  iexact H3

end Cert.Kernel.Fr

end
-- ==== Proof.FrLaunchB.lean ====
/-
  The launch of the fused expert layer: every weakly fair execution of @main terminates, with each window's array at
  what the pipeline leaves in it — the inputs as found, the output array at its written-back tiles —, the activations
  as launched, and the result the reshape of the output array.

  Two windows read the packed gate/up weights, so that array is handed to the pipeline split in two half shares, one
  per window, and read back per window at its share.
-/
import proofs.«164289_j53798760349861_2_alg».proof.Proof.FrBodyB
import proofs.«164289_j53798760349861_2_alg».proof.Proof.FrTailB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output array after the region. -/
abbrev outArr (c : Dev nD) : Buf (Elt F) ((c.tc : Thread nD τ).loc main_v2) := (dats m 0 c).arrAt 4 cfg0.N

set_option backward.isDefEq.respectTransparency.types false in
set_option maxHeartbeats 4000000 in
theorem run_main : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = Vexit m c (outArr m c) b) :=
  Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := fun c => arrays_of_arrBufs (dats m 0 c) rfl rfl rfl rfl (V m c) _ (fun w => A_eq m c w))
    (hpf := fun _ k => k.elim0)
    (X := fun _ => iprop(emp)) (Y := fun _ => iprop(emp))
    (Z := fun c => Pipeline.unscopedRest spec0 c (V m c))
    (Z' := fun c => Pipeline.unscopedRest spec0 c (Vexit m c (outArr m c)))
    (hX := fun c => by
      rw [Pipeline.unscopedRestP_none]
      iintro H; isplitr; · iempintro
      iexact H)
    (hin := fun c => (show _ ⊢ Pipeline.scopedRest spec0 c from by iintro ⟨-, -, HR⟩; iexact HR).trans (hin m c))
    (hout := fun c => (hout m c).trans (by iintro H; isplitr; · iempintro
                                           iexact H))
    (htail := fun c Q' => tail_line m (dats m 0 c) _ Q' Variants.none)
    (QY := fun c s => ∀ b ∈ Pipeline.restRefs sig spec0, s.mem ((c.tc : Thread nD τ).loc b) = Vexit m c (outArr m c) b)
    (hY := fun c s' => by
      iintro ⟨-, HU, HSI⟩
      unfold Pipeline.unscopedRest
      imodintro
      iapply (pointsTo_read_all (Pipeline.restRefs sig spec0) (fun b => (c.tc : Thread nD τ).loc b) (Vexit m c (outArr m c)) s')
      isplitl [HU] <;> iassumption)
    (hQ := fun s h c => ⟨(h c).1, (h c).2.2⟩)

/-- The activations and the result are no window's array: they bypass the region. -/
theorem arg0_rest : main_arg0 ∈ Pipeline.restRefs sig spec0 := Pipeline.mem_restRefs_of main_arg0 rfl (by decide)
theorem v3_rest : main_v3 ∈ Pipeline.restRefs sig spec0 := Pipeline.mem_restRefs_of main_v3 rfl (by decide)

/-- The run with the result named: the reshape of the output array; the three arguments as launched. -/
theorem run_value : θ_run defs (onTc (τ := τ) (main (F := F))) ⟨m, fun _ => 0, ρ⟩ (fun r => ∀ c : Dev nD,
      r.2.mem ((c.tc : Thread nD τ).loc main_v3) = shapeCast _ (outArr m c) shapeCasts_S8x1024x2048_S8192x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v3 v3_rest).trans (Vexit_main_v3 m c _),
      ((h c).2 main_arg0 arg0_rest).trans ((Vexit_main_arg0 m c _).trans (V_main_arg0 m c)),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c)))⟩) (run_main m ρ)

/-- The frame: the run ends, nothing faults, the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_value m ρ)

end Cert.Kernel.Fr

end
-- ==== Proof.FrBasicsI.lean ====
/-
  The region of the fused expert layer, seen from @main: the contents every buffer holds when the region is
  entered (after the reshape of the activations and their change of format), @main as "lines, region, lines",
  each window's block at a grid point, the two branch conditions of the body in closed form over the 8 x 24
  grid (a point is t = 24 e + k: the gate/up phase is k < 16, the down phase 16 <= k), and where the output
  window is idle.
-/
import proofs.«164289_j53798760349861_2_alg».proof.Proof.Gen.KernelIdeal.Launch
import proofs.«164289_j53798760349861_2_alg».proof.Proof.Gen.KernelIdeal.Skeleton
import proofs.«164289_j53798760349861_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents after the two lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two lines before the region, the region, and the line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (show List.Forall _ [hostOps0] from hostOps0_sub)
    (show List.Forall _ [hostOps0] from hostOps0_fresh) main_chain

/-- The three argument arrays are as launched when the region is entered: the lines before it write other buffers. -/
theorem V_main_arg0 (c : Dev nD) : V m c main_arg0 = m ((c : Thread nD τ).loc main_arg0) := by
  dsimp only [V, V0]; simp only [hostOps0, List.flatten_cons, List.flatten_nil, List.append_nil]; after_results
theorem V_main_arg1 (c : Dev nD) : V m c main_arg1 = m ((c : Thread nD τ).loc main_arg1) := by
  dsimp only [V, V0]; simp only [hostOps0, List.flatten_cons, List.flatten_nil, List.append_nil]; after_results
theorem V_main_arg2 (c : Dev nD) : V m c main_arg2 = m ((c : Thread nD τ).loc main_arg2) := by
  dsimp only [V, V0]; simp only [hostOps0, List.flatten_cons, List.flatten_nil, List.append_nil]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before_in_of {c : Dev nD} (dat : Dat τ (Elt F) Unit ℕ (UR sig nD τ) ℕ cfg0 c) (w : Fin cfg0.W)
    (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hA : dat.A w = V m c (Pipeline.arrRef spec0 w))
    (hafter : ∀ t, (cfg0.win w).cut (cfg0.grid.coords t) (dat.after w t) = dat.blockOf w t) (t : Fin cfg0.N) (d) :
    dat.before w t d = dat.fetched w t d :=
  dat.before_in_eq_fetched w hw hlive hclip hafter t d

/-! ## The body's two phases, decided over the grid -/

/-- The gate/up phase: the first sixteen steps of each expert. -/
theorem hcondA : ∀ t : Fin cfg0.N, k0_cond1 (grid0.coords t) = 1#1 ↔ t.val % 24 < 16 :=
  (by decide +kernel : ∀ t : Fin grid0.N, k0_cond1 (grid0.coords t) = 1#1 ↔ t.val % 24 < 16)
/-- The down phase: the last eight. -/
theorem hcondB : ∀ t : Fin cfg0.N, k0_cond2 (grid0.coords t) = 1#1 ↔ 16 ≤ t.val % 24 :=
  (by decide +kernel : ∀ t : Fin grid0.N, k0_cond2 (grid0.coords t) = 1#1 ↔ 16 ≤ t.val % 24)

/-- The column offset of the hidden tile stored at a gate/up step. -/
theorem hoff : ∀ t : Fin cfg0.N, k0_off1 (grid0.coords t) = ![0, 256 * (t.val % 24)] :=
  (by decide +kernel : ∀ t : Fin grid0.N, k0_off1 (grid0.coords t) = ![0, 256 * (t.val % 24)])

/-- The inputs are never idle; the output is idle exactly in the gate/up phase, and is not written back there. -/
theorem live0 : ∀ i, cfg0.idle 0 i = false := fun _ => rfl
theorem live1 : ∀ i, cfg0.idle 1 i = false := fun _ => rfl
theorem live2 : ∀ i, cfg0.idle 2 i = false := fun _ => rfl
theorem live3 : ∀ i, cfg0.idle 3 i = false := fun _ => rfl
theorem idle4_A : ∀ t : Fin cfg0.N, t.val % 24 < 16 → cfg0.idle 4 (grid0.coords t) = true :=
  (by decide +kernel : ∀ t : Fin grid0.N, t.val % 24 < 16 → cfg0.idle 4 (grid0.coords t) = true)
theorem noFlush4_A : ∀ t : Fin cfg0.N, t.val % 24 < 16 → (cfg0.win 4).flush t = false :=
  (by decide +kernel : ∀ t : Fin grid0.N, t.val % 24 < 16 → win0_4.flush t = false)
theorem live4_B : ∀ t : Fin cfg0.N, 16 ≤ t.val % 24 → cfg0.idle 4 (grid0.coords t) = false :=
  (by decide +kernel : ∀ t : Fin grid0.N, 16 ≤ t.val % 24 → cfg0.idle 4 (grid0.coords t) = false)
theorem flush4_B : ∀ t : Fin cfg0.N, 16 ≤ t.val % 24 → (cfg0.win 4).flush t = true :=
  (by decide +kernel : ∀ t : Fin grid0.N, 16 ≤ t.val % 24 → win0_4.flush t = true)

/-! ## The staging memrefs and the scratch -/

abbrev ms0 (t : Fin cfg0.N) : Memref sig .tc .vmem S1x1024x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x4096x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x256 .f32 := win0_4.stage (cfg0.slots t 4)
abbrev hs4 (t : Fin cfg0.N) : (ms4 t).IsWhole := hstage0_4 ((cfg0.slots t 4).cast nbuf0_4)
/-- The hidden-activation scratch: a whole scoped buffer of the kernel's own, carried from point to point. -/
abbrev scM : Memref sig .tc .vmem S1024x4096 .bf16 := Memref.whole cc0_scratch0

/-- What the region hands the body besides the windows: the scratch at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Fr

end
-- ==== Proof.FrRunsI.lean ====
/-
  The body of the fused expert layer run once in each of its two phases, on any whole staging memrefs.
  Gate/up phase (k < 16): it loads the token block and the two weight tiles, and stores one 1024 x 256 tile of
  the hidden activations into the scratch at column 256 k: afterwards the scratch holds that tile there and what
  it held before everywhere else; every other buffer is left as found.
  Down phase (16 <= k): it loads the down-weight tile and the whole scratch, and stores their product over the
  whole output tile; the scratch and the inputs are left as found.
-/
import proofs.«164289_j53798760349861_2_alg».proof.Proof.FrBasicsI
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := by funext a; fin_cases a <;> rfl
theorem hz2 : (![0, 0] : Fin 2 → Nat) = fun _ => 0 := by funext a; fin_cases a <;> rfl

/-- The rectangle of the scratch a gate/up step stores its tile through. -/
abbrev tileRect (i : grid0.Coords) (hc1 : k0_cond1 i = 1#1) : Rect S1024x4096 :=
  Rect.unit (s := S1024x4096) (k0_off1 i) S1024x256.size (Gen.k0_off1_inb i hc1)

/-- A whole-buffer load of a whole memref at contents `x` reads `x`. -/
theorem readAt_whole {sp : Space} {S : Shape} {e : EltTy} {a : Memref sig .tc sp S e} (ha : a.IsWhole) {off : Fin S.rank → Nat}
    (h : off = fun _ => 0) (inb : ∀ a, off a + S.size a ≤ S.size a) (x : S.Idx → Elt F e) :
    View.readAt (Elt F) a.view (Rect.unit (s := S) off S.size inb).toLoadRect (ha.unread x) = x := by
  rw [View.readAt_eq_ld, ha.read_unread, View.ld_unit_zero h inb]

set_option maxHeartbeats 2000000 in
/-- The gate/up phase. -/
theorem runA (c : Dev nD) (i : grid0.Coords)
    (arg2 : Memref sig .tc .vmem S1x1024x2048 .bf16) (harg2 : arg2.IsWhole) (arg3 : Memref sig .tc .vmem S1x2048x256 .f32) (harg3 : arg3.IsWhole)
    (arg4 : Memref sig .tc .vmem S1x2048x256 .f32) (harg4 : arg4.IsWhole) (arg5 : Memref sig .tc .vmem S1x4096x256 .f32) (harg5 : arg5.IsWhole)
    (arg6 : Memref sig .tc .vmem S1x1024x256 .f32) (harg6 : arg6.IsWhole) (arg7 : Memref sig .tc .vmem S1024x4096 .bf16) (harg7 : arg7.IsWhole)
    (hc1 : k0_cond1 i = 1#1) (hc2 : ¬ k0_cond2 i = 1#1)
    (x0 : Vec F S1x1024x2048 .bf16) (x1 x2 : Vec F S1x2048x256 .f32) (x3 : Vec F S1x4096x256 .f32) (x4 : Vec F S1x1024x256 .f32)
    (xs : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ X' : Vec F S1024x4096 .bf16, ⌜(∀ x, X' ((tileRect i hc1).emb x) = k0_pay1 x0 x1 x2 x) ∧ (∀ y, y ∉ (tileRect i hc1).set → X' y = xs y)⌝
                ∗ owns (c : Thread nD τ) arg7 fullShare X')) -∗ K ⟨⟩))
      ⊢ wp frame (wpE (defs₀ (F := F)) Variants.none c none) E (cc0__fused_kernel i arg2 harg2 arg3 harg3 arg4 harg4 arg5 harg5 arg6 harg6 arg7 harg7) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hc1 | exact hc2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  iexists (arg7.view.read (Elt F) (arg7.view.writes (Elt F) (harg7.unread xs)
    [⟨tileRect i hc1, k0_pay1 x0 x1 x2⟩]))
  isplitr
  · ipureintro
    refine ⟨fun x => ?_, fun y hy => ?_⟩
    · exact View.read_writes_cons_emb _ _ _ _ _ x
    · rw [View.writes_cons, View.read_slice_write_of_not_mem _ _ _ _ (by rwa [Rect.map_emb_univ]), View.writes_nil, harg7.read_unread]
  iexists _; isplitr; · ipureintro; rfl
  rw [readAt_whole harg2 hz3, readAt_whole harg3 hz3, readAt_whole harg4 hz3]
  iexact HS

set_option maxHeartbeats 2000000 in
/-- The down phase. -/
theorem runB (c : Dev nD) (i : grid0.Coords)
    (arg2 : Memref sig .tc .vmem S1x1024x2048 .bf16) (harg2 : arg2.IsWhole) (arg3 : Memref sig .tc .vmem S1x2048x256 .f32) (harg3 : arg3.IsWhole)
    (arg4 : Memref sig .tc .vmem S1x2048x256 .f32) (harg4 : arg4.IsWhole) (arg5 : Memref sig .tc .vmem S1x4096x256 .f32) (harg5 : arg5.IsWhole)
    (arg6 : Memref sig .tc .vmem S1x1024x256 .f32) (harg6 : arg6.IsWhole) (arg7 : Memref sig .tc .vmem S1024x4096 .bf16) (harg7 : arg7.IsWhole)
    (hc1 : ¬ k0_cond1 i = 1#1) (hc2 : k0_cond2 i = 1#1)
    (x0 : Vec F S1x1024x2048 .bf16) (x1 x2 : Vec F S1x2048x256 .f32) (x3 : Vec F S1x4096x256 .f32) (x4 : Vec F S1x1024x256 .f32)
    (xs : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay2 x3 xs)
            ∗ owns (c : Thread nD τ) arg7 fullShare xs) -∗ K ⟨⟩))
      ⊢ wp frame (wpE (defs₀ (F := F)) Variants.none c none) E (cc0__fused_kernel i arg2 harg2 arg3 harg3 arg4 harg4 arg5 harg5 arg6 harg6 arg7 harg7) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hc1 | exact hc2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]
  · iexists _; isplitr; swap; · iexact H4
    ipureintro
    rw [readAt_whole harg5 hz3, readAt_whole harg7 hz2]
    rw [View.read_writes_eq_canon _ _ _ (fun y => ⟨_, List.mem_singleton_self _, View.mem_set_unit_zero hz3 Gen.inb_S1x1024x256_S1x1024x256_0_0_0 y⟩)]
    exact View.canon_unit_zero hz3 Gen.inb_S1x1024x256_S1x1024x256_0_0_0 _
  iexists _; isplitr; · ipureintro; exact harg7.read_unread _
  iexact HS

end Cert.KernelIdeal.Fr

end
-- ==== Proof.FrBodyI.lean ====
/-
  The proof data of the fused expert layer's pipeline and its body obligation.

  A grid point is t = 24 e + k. In the gate/up phase (k < 16) step k stores hidden columns [256 k, 256 k + 256) of
  expert e into the scratch; in the down phase (16 <= k) the whole scratch is read. So in closed form, with no
  recursion over the points: column f of expert e's hidden activations is the tile stored at point
  24 e + f / 256, read at column f % 256 (`hidOf`). The invariant after point t says exactly that of the columns
  stored so far in this expert's phase: every column below 256 * min (k + 1) 16 (`Inv`). At the first down step
  all 4096 columns are right, so the down product is taken of `hidOf` itself, whatever the scratch held when the
  region was entered.
-/
import proofs.«164289_j53798760349861_2_alg».proof.Proof.FrRunsI
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The hidden activations in closed form -/

/-- The hidden tile a gate/up step at point `s` computes from its three input blocks. -/
def tileVal (c : Dev nD) (s : Fin cfg0.N) : Vec F S1024x256 .bf16 :=
  k0_pay1 (iblk m c 0 s) (iblk m c 1 s) (iblk m c 2 s)

/-- The point of `t`'s expert whose gate/up step stores the hidden column of `y`. -/
def tileAt (t : Fin cfg0.N) (y : S1024x4096.Idx) : Fin cfg0.N :=
  ⟨24 * (t.val / 24) + (y 1).val / 256, by
    have h1 : t.val < 192 := lt_of_lt_of_eq t.isLt (show cfg0.N = 192 from N_0)
    have h2 : (y 1).val < 4096 := ValueIdx.idx2_lt1 y
    show _ < grid0.N; rw [N_0]; omega⟩

/-- The column of `y` inside its tile. -/
def inTile (y : S1024x4096.Idx) : S1024x256.Idx :=
  ValueIdx.ix2 (y 0) ⟨(y 1).val % 256, Nat.mod_lt _ (by decide)⟩

/-- The hidden activations of `t`'s expert, all 4096 columns. -/
def hidOf (c : Dev nD) (t : Fin cfg0.N) : Vec F S1024x4096 .bf16 :=
  fun y => tileVal m c (tileAt t y) (inTile y)

/-- They depend on the point through its expert only. -/
theorem hidOf_congr (c : Dev nD) (t t' : Fin cfg0.N) (h : t.val / 24 = t'.val / 24) : hidOf m c t = hidOf m c t' := by
  funext y
  have e : tileAt t y = tileAt t' y := Fin.ext (by simp only [tileAt]; rw [h])
  unfold hidOf; rw [e]

/-- What is known of the scratch after point `n`: the columns stored so far in this expert's phase. -/
def Inv (c : Dev nD) (n : ℕ) (hn : n < cfg0.N) (X : Vec F S1024x4096 .bf16) : Prop :=
  ∀ y : S1024x4096.Idx, (y 1).val < 256 * min (n % 24 + 1) 16 → X y = hidOf m c ⟨n, hn⟩ y

/-- The region invariant before position `n`: the scratch at anything before the first point, afterwards at
    contents of which `Inv` holds. -/
def PhiS (c : Dev nD) : (n : ℕ) → n ≤ cfg0.N → sProp 𝕄
  | 0, _ => iprop(∃ d, owns (c : Thread nD τ) scM fullShare d)
  | n + 1, hn => iprop(∃ X, ⌜Inv m c n hn X⌝ ∗ owns (c : Thread nD τ) scM fullShare X)

theorem PhiS_succ (c : Dev nD) (n : ℕ) (hn : n < cfg0.N) :
    PhiS m c (n + 1) hn = iprop(∃ X, ⌜Inv m c n hn X⌝ ∗ owns (c : Thread nD τ) scM fullShare X) := rfl

/-- Either way the scratch is held at some contents, of which the previous point's invariant holds if there was one. -/
theorem PhiS_pre (c : Dev nD) (n : ℕ) (h : n ≤ cfg0.N) :
    PhiS m c n h ⊢ iprop(∃ xs, ⌜∀ hz : n ≠ 0, Inv m c (n - 1) (Nat.lt_of_lt_of_le (Nat.sub_lt (Nat.pos_of_ne_zero hz) Nat.one_pos) h) xs⌝
      ∗ owns (c : Thread nD τ) scM fullShare xs) := by
  cases n with
  | zero =>
    show iprop(∃ d, owns (c : Thread nD τ) scM fullShare d) ⊢ _
    iintro ⟨%d, H⟩; iexists d; isplitr
    · ipureintro; intro hz; exact absurd rfl hz
    iexact H
  | succ n =>
    show iprop(∃ X, ⌜Inv m c n h X⌝ ∗ owns (c : Thread nD τ) scM fullShare X) ⊢ _
    iintro ⟨%X, %hX, H⟩; iexists X; isplitr
    · ipureintro; intro _; exact hX
    iexact H

/-- The kernel's scoped buffers beside the staging buffers: the scratch, at some contents. -/
theorem scoped_eq (c : Dev nD) :
    (Pipeline.scopedRest spec0 c : sProp 𝕄) = iprop(∃ d, owns (c : Thread nD τ) scM fullShare d) := by
  rw [scopedRest0_eq]; simp only [scM, owns_whole]; try rfl

/-! ## The pipeline's proof data -/

/-- The arrays as the region finds them; after the body each input's buffer at its block and the output's at the
    down product of its weight tile with the expert's hidden activations; the two windows on the packed gate/up
    weights hold half of that array each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay2 (iblk m c 3 t) (hidOf m c t)
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay2 (iblk m c 3 t) (hidOf m c t) := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The invariant through one step -/

theorem off0 (t : Fin cfg0.N) : k0_off1 (grid0.coords t) 0 = 0 := by rw [hoff t]; rfl
theorem off1 (t : Fin cfg0.N) : k0_off1 (grid0.coords t) 1 = 256 * (t.val % 24) := by rw [hoff t]; rfl

/-- A gate/up step: the stored tile is this step's columns of `hidOf`, and the columns stored before are kept. -/
theorem inv_stepA (c : Dev nD) (t : Fin cfg0.N) (hk : t.val % 24 < 16) (hc1 : k0_cond1 (grid0.coords t) = 1#1)
    (xs X' : Vec F S1024x4096 .bf16)
    (hxs : ∀ hz : t.val ≠ 0, Inv m c (t.val - 1) (Nat.lt_of_lt_of_le (Nat.sub_lt (Nat.pos_of_ne_zero hz) Nat.one_pos) (Nat.le_of_lt t.isLt)) xs)
    (hX' : (∀ x, X' ((tileRect (grid0.coords t) hc1).emb x) = k0_pay1 (iblk m c 0 t) (iblk m c 1 t) (iblk m c 2 t) x)
      ∧ (∀ y, y ∉ (tileRect (grid0.coords t) hc1).set → X' y = xs y)) :
    Inv m c t.val t.isLt X' := by
  intro y hy
  have hN : t.val < 192 := lt_of_lt_of_eq t.isLt (show cfg0.N = 192 from N_0)
  have hcol : (y 1).val < 4096 := ValueIdx.idx2_lt1 y
  have hrow : (y 0).val < 1024 := ValueIdx.idx2_lt0 y
  have hmin : min (t.val % 24 + 1) 16 = t.val % 24 + 1 := by omega
  rw [hmin] at hy
  by_cases hin : 256 * (t.val % 24) ≤ (y 1).val
  · have hmem : y ∈ (tileRect (grid0.coords t) hc1).set := Rect.mem_set_unit.mpr fun a => by
      match a with
      | ⟨0, _⟩ => rw [show (⟨0, _⟩ : Fin S1024x4096.rank) = 0 from rfl, off0]; exact ⟨Nat.zero_le _, by show (y 0).val < 0 + 1024; omega⟩
      | ⟨1, _⟩ => rw [show (⟨1, _⟩ : Fin S1024x4096.rank) = 1 from rfl, off1]; exact ⟨hin, by show (y 1).val < 256 * (t.val % 24) + 256; omega⟩
    obtain ⟨x, rfl⟩ := (tileRect (grid0.coords t) hc1).exists_idx_of_mem hmem
    have e1 : (((tileRect (grid0.coords t) hc1).emb x) 1 : ℕ) = 256 * (t.val % 24) + (x 1).val := by
      rw [Rect.emb_apply]; show k0_off1 (grid0.coords t) 1 + 1 * (x 1).val = _; rw [off1]; omega
    have e0 : (((tileRect (grid0.coords t) hc1).emb x) 0 : ℕ) = (x 0).val := by
      rw [Rect.emb_apply]; show k0_off1 (grid0.coords t) 0 + 1 * (x 0).val = _; rw [off0]; omega
    have hx1 : (x 1).val < 256 := ValueIdx.idx2_lt1 x
    refine (hX'.1 x).trans ?_
    have h1 : tileAt ⟨t.val, t.isLt⟩ ((tileRect (grid0.coords t) hc1).emb x) = t :=
      Fin.ext (by show 24 * (t.val / 24) + (((tileRect (grid0.coords t) hc1).emb x) 1 : ℕ) / 256 = t.val; rw [e1]; omega)
    have h2 : inTile ((tileRect (grid0.coords t) hc1).emb x) = x := by
      refine Eq.trans ?_ (ValueIdx.eq_ix2 x).symm
      have a0 : ((tileRect (grid0.coords t) hc1).emb x) 0 = x 0 := Fin.ext e0
      have a1 : (⟨(((tileRect (grid0.coords t) hc1).emb x) 1).val % 256, Nat.mod_lt _ (by decide)⟩ : Fin 256) = x 1 :=
        Fin.ext (by show (((tileRect (grid0.coords t) hc1).emb x) 1 : ℕ) % 256 = (x 1).val; rw [e1]; omega)
      unfold inTile; rw [a0, a1]; rfl
    show _ = tileVal m c (tileAt ⟨t.val, t.isLt⟩ ((tileRect (grid0.coords t) hc1).emb x)) (inTile ((tileRect (grid0.coords t) hc1).emb x))
    rw [h1, h2]; rfl
  · have hnot : y ∉ (tileRect (grid0.coords t) hc1).set := fun h => by
      have h1 := (Rect.mem_set_unit.mp h) 1
      rw [off1] at h1; exact hin h1.1
    have hz : t.val ≠ 0 := by intro h; rw [h] at hin; omega
    rw [hX'.2 y hnot, hxs hz y (by omega)]
    exact congrFun (hidOf_congr m c _ _ (by show (t.val - 1) / 24 = t.val / 24; omega)) y

/-- By a down step every column has been stored: the scratch holds the expert's hidden activations. -/
theorem inv_full (c : Dev nD) (t : Fin cfg0.N) (hk : 16 ≤ t.val % 24) (xs : Vec F S1024x4096 .bf16)
    (hxs : ∀ hz : t.val ≠ 0, Inv m c (t.val - 1) (Nat.lt_of_lt_of_le (Nat.sub_lt (Nat.pos_of_ne_zero hz) Nat.one_pos) (Nat.le_of_lt t.isLt)) xs) :
    xs = hidOf m c t := by
  funext y
  have hcol : (y 1).val < 4096 := ValueIdx.idx2_lt1 y
  have hz : t.val ≠ 0 := by intro h; rw [h] at hk; omega
  rw [hxs hz y (by omega)]
  exact congrFun (hidOf_congr m c _ _ (by show (t.val - 1) / 24 = t.val / 24; omega)) y

theorem inv_keepB (c : Dev nD) (t : Fin cfg0.N) : Inv m c t.val t.isLt (hidOf m c t) := fun y _ => rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves0 (c : Dev nD) (t : Fin cfg0.N) : (dats m 0 c).leavesExact 0 t = owns (c : Thread nD τ) (ms0 t) fullShare (iblk m c 0 t) := by
  rw [← after0]
theorem leaves1 (c : Dev nD) (t : Fin cfg0.N) : (dats m 0 c).leavesExact 1 t = owns (c : Thread nD τ) (ms1 t) fullShare (iblk m c 1 t) := by
  rw [← after1]
theorem leaves2 (c : Dev nD) (t : Fin cfg0.N) : (dats m 0 c).leavesExact 2 t = owns (c : Thread nD τ) (ms2 t) fullShare (iblk m c 2 t) := by
  rw [← after2]
theorem leaves3 (c : Dev nD) (t : Fin cfg0.N) : (dats m 0 c).leavesExact 3 t = owns (c : Thread nD τ) (ms3 t) fullShare (iblk m c 3 t) := by
  rw [← after3]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, PhiS_castSucc m c t]
  have hN : t.val < 192 := lt_of_lt_of_eq t.isLt (show cfg0.N = 192 from N_0)
  by_cases hk : t.val % 24 < 16
  · have hc1 : k0_cond1 (grid0.coords t) = 1#1 := (hcondA t).mpr hk
    have hc2 : ¬ k0_cond2 (grid0.coords t) = 1#1 := fun h => by have := (hcondB t).mp h; omega
    rw [Dat.leavesExact_idle (dats m 0 c) 4 t (idle4_A t hk) (noFlush4_A t hk)]
    iintro ⟨HΦ, Ho, ⟨%d0, H0⟩, ⟨%d1, H1⟩, ⟨%d2, H2⟩, ⟨%d3, H3⟩, ⟨%d4, H4⟩⟩
    ihave HΦ' := (PhiS_pre m c t.val (Nat.le_of_lt t.isLt)) $$ HΦ
    icases HΦ' with ⟨%xs, %hxs, HS⟩
    iapply (runA c (grid0.coords t) (ms0 t) (hs0 t) (ms1 t) (hs1 t) (ms2 t) (hs2 t) (ms3 t) (hs3 t) (ms4 t) (hs4 t) scM (Memref.isWhole_whole _) hc1 hc2
      (iblk m c 0 t) (iblk m c 1 t) (iblk m c 2 t) (iblk m c 3 t) ((dats m 0 c).before 4 t d4) xs Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%X', %hX', HS⟩⟩
    isplitl [HS]
    · iexists X'; isplitr
      · ipureintro; exact inv_stepA m c t hk hc1 xs X' hxs hX'
      iexact HS
    isplitl [Ho]; · iexact Ho
    isplitl [H0]; · iexact H0
    isplitl [H1]; · iexact H1
    isplitl [H2]; · iexact H2
    isplitl [H3]; · iexact H3
    iexists d4; iexact H4
  · have hk' : 16 ≤ t.val % 24 := Nat.le_of_not_lt hk
    have hc1 : ¬ k0_cond1 (grid0.coords t) = 1#1 := fun h => hk ((hcondA t).mp h)
    have hc2 : k0_cond2 (grid0.coords t) = 1#1 := (hcondB t).mpr hk'
    rw [show (dats m 0 c).leavesExact 4 t = owns (c : Thread nD τ) (ms4 t) fullShare ((dats m 0 c).after 4 t) from by
      unfold Dat.leavesExact; rw [live4_B t hk'], after4]
    iintro ⟨HΦ, Ho, ⟨%d0, H0⟩, ⟨%d1, H1⟩, ⟨%d2, H2⟩, ⟨%d3, H3⟩, ⟨%d4, H4⟩⟩
    ihave HΦ' := (PhiS_pre m c t.val (Nat.le_of_lt t.isLt)) $$ HΦ
    icases HΦ' with ⟨%xs, %hxs, HS⟩
    obtain rfl := inv_full m c t hk' xs hxs
    iapply (runB c (grid0.coords t) (ms0 t) (hs0 t) (ms1 t) (hs1 t) (ms2 t) (hs2 t) (ms3 t) (hs3 t) (ms4 t) (hs4 t) scM (Memref.isWhole_whole _) hc1 hc2
      (iblk m c 0 t) (iblk m c 1 t) (iblk m c 2 t) (iblk m c 3 t) ((dats m 0 c).before 4 t d4) (hidOf m c t) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS]
    · iexists (hidOf m c t); isplitr
      · ipureintro; exact inv_keepB m c t
      iexact HS
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the region hands the body besides the windows is the invariant before the first point, -/
theorem hin (c : Dev nD) : Pipeline.scopedRest spec0 c ⊢ (dats m 0 c).Φ 0 := by
  rw [show (dats m 0 c).Φ 0 = PhiS m c 0 (Nat.zero_le _) from rfl, scoped_eq]
  exact Idealize.SL.BI.Entails.refl _

/-- and after the last point the invariant gives it back, the scratch's contents forgotten. -/
theorem hout (c : Dev nD) : (dats m 0 c).Φ (Fin.last cfg0.N) ⊢ Pipeline.scopedRest spec0 c := by
  rw [scoped_eq]
  refine (show (dats m 0 c).Φ (Fin.last cfg0.N) ⊢ _ from PhiS_pre m c (Fin.last cfg0.N).val (Nat.le_of_lt_succ (Fin.last cfg0.N).isLt)).trans ?_
  iintro ⟨%xs, -, H⟩; iexists xs; iexact H

end Cert.KernelIdeal.Fr

end
-- ==== Proof.FrTailI.lean ====
/-
  The region of the fused expert layer, seen from @main, at its two ends: how the buffers the launch holds
  become the windows' arrays when the region is entered (the packed gate/up weights are one array read
  through two windows, so its one full share is halved between them), and the one line of @main after the
  region, the reshape of the region's result [8, 1024, 2048] to [8192, 2048].
-/
import proofs.«164289_j53798760349861_2_alg».proof.Proof.FrBasicsI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays when the region is entered -/

/-- The four distinct buffers behind the five windows, each whole at the full share, are the windows' arrays at the
    windows' shares: the packed weights, read through two windows, are held once and split into their two halves. -/
theorem arrays_of_arrBufs {c : Dev nD} (dat : Dat τ (Elt F) Unit ℕ (UR sig nD τ) ℕ cfg0 c)
    (hq0 : dat.q 0 = fullShare) (hq1 : dat.q 1 = fullShare.left) (hq2 : dat.q 2 = fullShare.right) (hq3 : dat.q 3 = fullShare)
    (Vc : (b : Ref sig .tc) → Buf (Elt F) ((c : Thread nD τ).loc b))
    (Fw : (w : Fin cfg0.W) → Buf (Elt F) ((cfg0.win w).arr.view.loc (c : Thread nD τ)))
    (hF : ∀ w, Fw w = Vc (Pipeline.arrRef spec0 w)) :
    (Pipeline.arrBufs spec0 c Vc : sProp 𝕄) ⊢ dat.arrays Fw := by
  have s0 : dat.share 0 = fullShare := by unfold Dat.share; exact (if_neg (by decide)).trans hq0
  have s1 : dat.share 1 = fullShare.left := by unfold Dat.share; exact (if_neg (by decide)).trans hq1
  have s2 : dat.share 2 = fullShare.right := by unfold Dat.share; exact (if_neg (by decide)).trans hq2
  have s3 : dat.share 3 = fullShare := by unfold Dat.share; exact (if_neg (by decide)).trans hq3
  have s4 : dat.share 4 = fullShare := by unfold Dat.share; exact if_pos (by decide)
  unfold Pipeline.arrBufs Dat.arrays
  have e : (bigSep (Finset.univ.image (Pipeline.arrRef spec0)) fun b => (((c : Thread nD τ).loc b) ↦{fullShare} Vc b : sProp 𝕄))
      = iprop((((c : Thread nD τ).loc main_v1) ↦{fullShare} Vc main_v1) ∗ (((c : Thread nD τ).loc main_arg1) ↦{fullShare} Vc main_arg1)
          ∗ (((c : Thread nD τ).loc main_arg2) ↦{fullShare} Vc main_arg2) ∗ (((c : Thread nD τ).loc main_v2) ↦{fullShare} Vc main_v2)) :=
    bigSep_eq_bigSepL_of_eq [main_v1, main_arg1, main_arg2, main_v2] (by decide) (by decide) _
  rw [e, bigSep_W0]
  rw [(arr_whole0 0).set_eq_univ, (arr_whole0 1).set_eq_univ, (arr_whole0 3).set_eq_univ,
    (arr_whole0 4).set_eq_univ, s0, s1, s2, s3, s4, hF 0, hF 1, hF 2, hF 3, hF 4]
  iintro ⟨H0, H1, H3, H4⟩
  ihave H1' := (pointsTo_share (PosShare.mem_left_op_right fullShare)).1 $$ H1
  icases H1' with ⟨Hl, Hr⟩
  isplitl [H0]; · iexact H0
  isplitl [Hl]; · iexact Hl
  isplitl [Hr]; · iexact Hr
  isplitl [H3]; · iexact H3
  iexact H4

/-! ## The line after the region -/

open Classical in
/-- The buffer contents the line after the region starts from: the region's result buffer at `X`, every other
    buffer as it was when the region was entered. -/
def Wexit (c : Dev nD) (X : Buf (Elt F) ((c : Thread nD τ).loc main_v2)) : Valuation τ sig (Elt F) := fun b =>
  if h : (Proc.devRef .tc main_v2 : DevRef τ sig) = b then cast (congrArg (fun b' : DevRef τ sig => b'.ty.Contents (Elt F)) h) X
  else V0 m c b

theorem Wexit_main_v2 (c : Dev nD) (X : Buf (Elt F) ((c : Thread nD τ).loc main_v2)) :
    Wexit m c X (Proc.devRef .tc main_v2) = X := by
  unfold Wexit; rw [dif_pos rfl]; rfl

theorem Wexit_of_ne (c : Dev nD) (X : Buf (Elt F) ((c : Thread nD τ).loc main_v2)) (b : Ref sig .tc) (hb : main_v2 ≠ b) :
    Wexit m c X (Proc.devRef .tc b) = V0 m c (Proc.devRef .tc b) := by
  unfold Wexit; rw [dif_neg]; exact fun e => hb (Proc.devRef_injective _ e)

/-- What core `c`'s buffers hold after the line that follows the region, the region's result being `X`: the
    reshape of `X` in the program's result buffer, every other buffer unchanged. -/
def Vexit (c : Dev nD) (X : Buf (Elt F) ((c : Thread nD τ).loc main_v2)) (b : Ref sig .tc) : Buf (Elt F) ((c : Thread nD τ).loc b) :=
  StableHlo.after hostOps1 (Wexit m c X) (Proc.devRef .tc b)

/-- The program's result is the region's result, reshaped. -/
theorem Vexit_main_v3 (c : Dev nD) (X : Buf (Elt F) ((c : Thread nD τ).loc main_v2)) :
    Vexit m c X main_v3 = shapeCast _ X shapeCasts_S8x1024x2048_S8192x2048 := by
  unfold Vexit; simp only [hostOps1]; after_results; rw [Wexit_main_v2]; rfl

/-- The line leaves the other buffers as they were. -/
theorem Vexit_main_arg0 (c : Dev nD) (X : Buf (Elt F) ((c : Thread nD τ).loc main_v2)) :
    Vexit m c X main_arg0 = V m c main_arg0 := by
  unfold Vexit; simp only [hostOps1]; after_results; exact Wexit_of_ne m c X main_arg0 (by decide)
theorem Vexit_main_v0 (c : Dev nD) (X : Buf (Elt F) ((c : Thread nD τ).loc main_v2)) :
    Vexit m c X main_v0 = V m c main_v0 := by
  unfold Vexit; simp only [hostOps1]; after_results; exact Wexit_of_ne m c X main_v0 (by decide)
theorem Vexit_main_v2 (c : Dev nD) (X : Buf (Elt F) ((c : Thread nD τ).loc main_v2)) :
    Vexit m c X main_v2 = X := by
  unfold Vexit; simp only [hostOps1]; after_results; exact Wexit_main_v2 m c X

/-- The line after the region: holding the windows' arrays as the region left them and the other unscoped buffers
    as they were when it was entered, the reshape runs, and the continuation is reached with the program's result
    buffer at the reshape of the region's result. -/
theorem tail_line {c : Dev nD} (dat : Dat τ (Elt F) Unit ℕ (UR sig nD τ) ℕ cfg0 c)
    (Fw : (w : Fin cfg0.W) → Buf (Elt F) ((cfg0.win w).arr.view.loc (c : Thread nD τ)))
    (Q' : PUnit → sProp 𝕄) (𝒱₀ : Variants) :
    iprop((iprop(dat.arrays Fw ∗ Pipeline.unscopedRest spec0 c (Vexit m c (Fw 4))) -∗ Q' ⟨⟩)
        ∗ boundary (c : Thread nD τ) ∗ dat.arrays Fw ∗ Pipeline.unscopedRest spec0 c (V m c))
      ⊢ wp frame (wpE (Pipeline.defs (fun q => Pipeline.Cfg.toPCfg (Val := Elt F) (cfgs q)) defs₀) (Variants.lift 𝒱₀)
            (c : Thread nD τ) none) Set.univ (Pipeline.chain [StableHlo.seq hostOps1]) Q' := by
  have s4 : dat.share 4 = fullShare := by unfold Dat.share; exact if_pos (by decide)
  have hne : (Proc.devRef .tc main_v2 : DevRef τ sig) ∉ ({Proc.devRef .tc main_v3} : Finset (DevRef τ sig)) := by
    rw [Finset.mem_singleton]; exact StableHlo.devRef_ne_of_ne (by decide)
  have hheld : ∀ Wv : Valuation τ sig (Elt F),
      (StableHlo.held (c : Thread nD τ) {Proc.devRef .tc main_v2, Proc.devRef .tc main_v3} Wv : sProp 𝕄)
        = iprop((((c : Thread nD τ).loc main_v2) ↦{fullShare} Wv (Proc.devRef .tc main_v2))
            ∗ (((c : Thread nD τ).loc main_v3) ↦{fullShare} Wv (Proc.devRef .tc main_v3))) := by
    intro Wv; unfold StableHlo.held; rw [bigSep_insert hne, bigSep_singleton]; rfl
  rw [unscopedRest0_eq, unscopedRest0_eq, Vexit_main_arg0, Vexit_main_v0]
  unfold Dat.arrays
  rw [bigSep_W0, (arr_whole0 4).set_eq_univ, s4]
  have hW : (StableHlo.held (c : Thread nD τ) {Proc.devRef .tc main_v2, Proc.devRef .tc main_v3} (Wexit m c (Fw 4)) : sProp 𝕄)
      = iprop((((c : Thread nD τ).loc main_v2) ↦{fullShare} Fw 4) ∗ (((c : Thread nD τ).loc main_v3) ↦{fullShare} V m c main_v3)) := by
    rw [hheld, Wexit_main_v2, Wexit_of_ne m c (Fw 4) main_v3 (by decide)]
  have hW' : (StableHlo.held (c : Thread nD τ) {Proc.devRef .tc main_v2, Proc.devRef .tc main_v3}
        (StableHlo.after [hostOps1].flatten (Wexit m c (Fw 4))) : sProp 𝕄)
      = iprop((((c : Thread nD τ).loc main_v2) ↦{fullShare} Fw 4)
          ∗ (((c : Thread nD τ).loc main_v3) ↦{fullShare} Vexit m c (Fw 4) main_v3)) := by
    rw [hheld, show ([hostOps1] : List (List (HloOp τ sig (Elt F)))).flatten = hostOps1 from List.append_nil _]
    rw [show StableHlo.after hostOps1 (Wexit m c (Fw 4)) (Proc.devRef .tc main_v2) = Fw 4 from Vexit_main_v2 m c (Fw 4)]
    rfl
  have hsub : ∀ ops ∈ ([hostOps1] : List (List (HloOp τ sig (Elt F)))), ∀ op ∈ ops,
      op.bufs ⊆ ({Proc.devRef .tc main_v2, Proc.devRef .tc main_v3} : Finset (DevRef τ sig)) := by
    intro ops ho op h
    rw [List.mem_singleton] at ho; subst ho
    rw [List.mem_singleton] at h; subst h
    exact Finset.Subset.refl _
  have hfresh : ∀ ops ∈ ([hostOps1] : List (List (HloOp τ sig (Elt F)))), ∀ op ∈ ops, op.fresh = ∅ := by
    intro ops ho op h
    rw [List.mem_singleton] at ho; subst ho
    exact (List.forall_iff_forall_mem.mp hostOps1_fresh) op h
  iintro ⟨Hk, Hb, ⟨A0, A1, A2, A3, A4⟩, R0, R1, R3⟩
  rw [← List.append_nil ([StableHlo.seq hostOps1] : List (Prog _ PUnit))]
  iapply (Pipeline.wp_seqs_then (fun q => Pipeline.Cfg.toPCfg (Val := Elt F) (cfgs q)) defs₀ 𝒱₀ c
    {Proc.devRef .tc main_v2, Proc.devRef .tc main_v3} [] [hostOps1] hsub hfresh (Wexit m c (Fw 4))) $$ [Hb A4 R3]
  · rw [hW]
    isplitl [Hb]; · iexact Hb
    isplitl [A4]; · iexact A4
    iexact R3
  iintro Hb
  rw [Pipeline.chain_nil, wp_pure, hW']
  imodintro
  iapply Hk
  icases Hb with ⟨-, H2, H3⟩
  isplitl [A0 A1 A2 A3 H2]
  · isplitl [A0]; · iexact A0
    isplitl [A1]; · iexact A1
    isplitl [A2]; · iexact A2
    isplitl [A3]; · iexact A3
    iexact H2
  isplitl [R0]; · iexact R0
  isplitl [R1]; · iexact R1
  iexact H3

end Cert.KernelIdeal.Fr

end
-- ==== Proof.FrLaunchI.lean ====
/-
  The launch of the fused expert layer: every weakly fair execution of @main terminates, with each window's array at
  what the pipeline leaves in it — the inputs as found, the output array at its written-back tiles —, the activations
  as launched, and the result the reshape of the output array.

  Two windows read the packed gate/up weights, so that array is handed to the pipeline split in two half shares, one
  per window, and read back per window at its share.
-/
import proofs.«164289_j53798760349861_2_alg».proof.Proof.FrBodyI
import proofs.«164289_j53798760349861_2_alg».proof.Proof.FrTailI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output array after the region. -/
abbrev outArr (c : Dev nD) : Buf (Elt F) ((c.tc : Thread nD τ).loc main_v2) := (dats m 0 c).arrAt 4 cfg0.N

set_option backward.isDefEq.respectTransparency.types false in
set_option maxHeartbeats 4000000 in
theorem run_main : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = Vexit m c (outArr m c) b) :=
  Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := fun c => arrays_of_arrBufs (dats m 0 c) rfl rfl rfl rfl (V m c) _ (fun w => A_eq m c w))
    (hpf := fun _ k => k.elim0)
    (X := fun _ => iprop(emp)) (Y := fun _ => iprop(emp))
    (Z := fun c => Pipeline.unscopedRest spec0 c (V m c))
    (Z' := fun c => Pipeline.unscopedRest spec0 c (Vexit m c (outArr m c)))
    (hX := fun c => by
      rw [Pipeline.unscopedRestP_none]
      iintro H; isplitr; · iempintro
      iexact H)
    (hin := fun c => (show _ ⊢ Pipeline.scopedRest spec0 c from by iintro ⟨-, -, HR⟩; iexact HR).trans (hin m c))
    (hout := fun c => (hout m c).trans (by iintro H; isplitr; · iempintro
                                           iexact H))
    (htail := fun c Q' => tail_line m (dats m 0 c) _ Q' Variants.none)
    (QY := fun c s => ∀ b ∈ Pipeline.restRefs sig spec0, s.mem ((c.tc : Thread nD τ).loc b) = Vexit m c (outArr m c) b)
    (hY := fun c s' => by
      iintro ⟨-, HU, HSI⟩
      unfold Pipeline.unscopedRest
      imodintro
      iapply (pointsTo_read_all (Pipeline.restRefs sig spec0) (fun b => (c.tc : Thread nD τ).loc b) (Vexit m c (outArr m c)) s')
      isplitl [HU] <;> iassumption)
    (hQ := fun s h c => ⟨(h c).1, (h c).2.2⟩)

/-- The activations and the result are no window's array: they bypass the region. -/
theorem arg0_rest : main_arg0 ∈ Pipeline.restRefs sig spec0 := Pipeline.mem_restRefs_of main_arg0 rfl (by decide)
theorem v3_rest : main_v3 ∈ Pipeline.restRefs sig spec0 := Pipeline.mem_restRefs_of main_v3 rfl (by decide)

/-- The run with the result named: the reshape of the output array; the three arguments as launched. -/
theorem run_value : θ_run defs (onTc (τ := τ) (main (F := F))) ⟨m, fun _ => 0, ρ⟩ (fun r => ∀ c : Dev nD,
      r.2.mem ((c.tc : Thread nD τ).loc main_v3) = shapeCast _ (outArr m c) shapeCasts_S8x1024x2048_S8192x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v3 v3_rest).trans (Vexit_main_v3 m c _),
      ((h c).2 main_arg0 arg0_rest).trans ((Vexit_main_arg0 m c _).trans (V_main_arg0 m c)),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c)))⟩) (run_main m ρ)

/-- The frame: the run ends, nothing faults, the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_value m ρ)

end Cert.KernelIdeal.Fr

end
-- ==== Proof.Spec.lean ====
/-
  The mixture-of-experts feed-forward layer both programs compute, as ONE function of the three argument
  arrays, index by index, on the extended reals.

  Eight experts; expert `e` owns the 1024 consecutive token rows `e * 1024 + i` of the activations
  `x : [8192, 2048]`. With `w : [8, 2048, 8192]` the packed gate/up weights (columns `f < 4096` the gate half,
  columns `4096 + f` the up half) and `d : [8, 4096, 2048]` the down weights,

      gate e i f = Σ_k x (e*1024+i, k) · w (e, k, f)
      up   e i f = Σ_k x (e*1024+i, k) · w (e, k, 4096 + f)
      hid  e i f = up e i f · (gate e i f · logistic (gate e i f))        -- up · silu(gate)
      out  e i j = Σ_f hid e i f · d (e, f, j)

  and the result row `r` is expert `r / 1024`'s row `r % 1024`.
-/
import Idealize.ShloMosaic.PureOps.Ideal
import Idealize.ShloMosaic.Lib.ValueIdx

noncomputable section

open scoped BigOperators

namespace Cert.MoE

open Idealize.ShloMosaic Idealize.ShloMosaic.ValueIdx

/-- The activations, the packed gate/up weights, the down weights, and the result, as index functions. -/
abbrev Acts := (⟨2, ![8192, 2048]⟩ : Shape).Idx → EReal
abbrev GateUp := (⟨3, ![8, 2048, 8192]⟩ : Shape).Idx → EReal
abbrev Down := (⟨3, ![8, 4096, 2048]⟩ : Shape).Idx → EReal

/-- Token row `i` of expert `e` in the flat activations. -/
def tok (e : Fin 8) (i : Fin 1024) : Fin 8192 := ⟨e.val * 1024 + i.val, by omega⟩
/-- Column `f` of the gate half of the packed weights. -/
def gcol (f : Fin 4096) : Fin 8192 := ⟨f.val, by omega⟩
/-- Column `f` of the up half of the packed weights. -/
def ucol (f : Fin 4096) : Fin 8192 := ⟨4096 + f.val, by omega⟩

/-- The gate projection of token `(e, i)` at hidden unit `f`. -/
def gate (x : Acts) (w : GateUp) (e : Fin 8) (i : Fin 1024) (f : Fin 4096) : EReal :=
  ∑ k : Fin 2048, x (ix2 (tok e i) k) * w (ix3 e k (gcol f))
/-- The up projection of token `(e, i)` at hidden unit `f`. -/
def up (x : Acts) (w : GateUp) (e : Fin 8) (i : Fin 1024) (f : Fin 4096) : EReal :=
  ∑ k : Fin 2048, x (ix2 (tok e i) k) * w (ix3 e k (ucol f))
/-- The gated hidden activation `up · silu(gate)`, with `silu z = z · logistic z`. -/
def hid (x : Acts) (w : GateUp) (e : Fin 8) (i : Fin 1024) (f : Fin 4096) : EReal :=
  up x w e i f * (gate x w e i f * Ideal.logistic (gate x w e i f))
/-- The down projection of token `(e, i)` at output column `j`. -/
def out (x : Acts) (w : GateUp) (d : Down) (e : Fin 8) (i : Fin 1024) (j : Fin 2048) : EReal :=
  ∑ f : Fin 4096, hid x w e i f * d (ix3 e f j)

/-- The expert that owns flat row `r`, and the row's place among that expert's tokens. -/
def expertOf (r : Fin 8192) : Fin 8 := ⟨r.val / 1024, by omega⟩
def rowOf (r : Fin 8192) : Fin 1024 := ⟨r.val % 1024, Nat.mod_lt _ (by norm_num)⟩

theorem tok_expertOf_rowOf (r : Fin 8192) : tok (expertOf r) (rowOf r) = r :=
  Fin.ext (by simp only [tok, expertOf, rowOf]; omega)
theorem expertOf_tok (e : Fin 8) (i : Fin 1024) : expertOf (tok e i) = e :=
  Fin.ext (by simp only [tok, expertOf]; omega)
theorem rowOf_tok (e : Fin 8) (i : Fin 1024) : rowOf (tok e i) = i :=
  Fin.ext (by simp only [tok, rowOf]; omega)

/-- The whole layer: the result array as a function of the three argument arrays. -/
def layer (x : Acts) (w : GateUp) (d : Down) : (⟨2, ![8192, 2048]⟩ : Shape).Idx → EReal :=
  fun r => out x w d (expertOf (r 0)) (rowOf (r 0)) (r 1)

theorem layer_apply (x : Acts) (w : GateUp) (d : Down) (e : Fin 8) (i : Fin 1024) (j : Fin 2048) :
    layer x w d (ix2 (tok e i) j) = out x w d e i j := by
  show out x w d (expertOf (tok e i)) (rowOf (tok e i)) j = _
  rw [expertOf_tok, rowOf_tok]

end Cert.MoE

end
-- ==== Proof.RefLayer.lean ====
/-
  The reference program computes the mixture-of-experts layer of the specification.

  The reference reshapes the activations [8192, 2048] to [8, 1024, 2048] (row-major: flat row
  e * 1024 + i becomes (e, i)), contracts each expert's rows with its packed weights, takes the two
  column halves as gate and up, forms up * (gate * (1 / (1 + exp (-gate)))), contracts with the down
  weights and reshapes back. Read index by index this is the specification's layer : the quotient
  1 / (1 + exp (-z)) is the logistic function, and the two reshapes are the bijection
  (e, i) <-> e * 1024 + i on rows.
-/
import proofs.«164289_j53798760349861_2_alg».proof.Proof.Spec
import proofs.«164289_j53798760349861_2_alg».proof.Proof.Gen.ReferenceIdeal.Read
import Idealize.ShloMosaic.Lib.IdealHost

noncomputable section

open scoped BigOperators

namespace Cert.MoE.Ref

open Cert.ReferenceIdeal Cert.ReferenceIdeal.Read Idealize.ShloMosaic Idealize.ShloMosaic.ValueIdx Cert.MoE

/-- The three argument arrays of the reference, as arrays of extended reals. -/
abbrev X0 := (⟨Cert.ReferenceIdeal.S8192x2048, .f32⟩ : BufTy).Contents (Elt Ideal)
abbrev X1 := (⟨Cert.ReferenceIdeal.S8x2048x8192, .f32⟩ : BufTy).Contents (Elt Ideal)
abbrev X2 := (⟨Cert.ReferenceIdeal.S8x4096x2048, .f32⟩ : BufTy).Contents (Elt Ideal)

/-! ## Index equations -/

/-- The first reshape reads row (e, i), column k at flat row e * 1024 + i, column k. -/
theorem idx_v0_lidx_v1 (e : Fin 8) (i : Fin 1024) (c : Fin 8192) (k : Fin 2048) :
    idx_main_v0 (lidx_main_v1 (ix3 e i c) k) = ix2 (tok e i) k :=
  funext fun a => Fin.ext (by
    have he : e.val < 8 := e.isLt
    have hi : i.val < 1024 := i.isLt
    have hk : k.val < 2048 := k.isLt
    match a with
    | ⟨0, _⟩ => show ((e.val * 1024 + i.val) * 2048 + k.val) / 2048 = e.val * 1024 + i.val; omega
    | ⟨1, _⟩ => show ((e.val * 1024 + i.val) * 2048 + k.val) % 2048 = k.val; omega)

theorem ridx_v1 (e : Fin 8) (i : Fin 1024) (c : Fin 8192) (k : Fin 2048) :
    ridx_main_v1 (ix3 e i c) k = ix3 e k c :=
  funext fun a => by match a with | ⟨0, _⟩ => rfl | ⟨1, _⟩ => rfl | ⟨2, _⟩ => rfl

theorem idx_v2 (e : Fin 8) (i : Fin 1024) (f : Fin 4096) :
    idx_main_v2 (ix3 e i f) = ix3 e i (gcol f) :=
  funext fun a => by match a with | ⟨0, _⟩ => rfl | ⟨1, _⟩ => rfl | ⟨2, _⟩ => rfl

theorem idx_v3 (e : Fin 8) (i : Fin 1024) (f : Fin 4096) :
    idx_main_v3 (ix3 e i f) = ix3 e i (ucol f) :=
  funext fun a => by match a with | ⟨0, _⟩ => rfl | ⟨1, _⟩ => rfl | ⟨2, _⟩ => rfl

theorem lidx_v6 (e : Fin 8) (i : Fin 1024) (j : Fin 2048) (f : Fin 4096) :
    lidx_main_v6 (ix3 e i j) f = ix3 e i f :=
  funext fun a => by match a with | ⟨0, _⟩ => rfl | ⟨1, _⟩ => rfl | ⟨2, _⟩ => rfl

theorem ridx_v6 (e : Fin 8) (i : Fin 1024) (j : Fin 2048) (f : Fin 4096) :
    ridx_main_v6 (ix3 e i j) f = ix3 e f j :=
  funext fun a => by match a with | ⟨0, _⟩ => rfl | ⟨1, _⟩ => rfl | ⟨2, _⟩ => rfl

/-- The last reshape reads flat row r, column j at expert r / 1024, row r % 1024, column j. -/
theorem idx_v7 (p : Fin 8192) (q : Fin 2048) :
    idx_main_v7 (ix2 p q) = ix3 (expertOf p) (rowOf p) q :=
  funext fun a => Fin.ext (by
    have h0 : p.val < 8192 := p.isLt
    have h1 : q.val < 2048 := q.isLt
    match a with
    | ⟨0, _⟩ => show (p.val * 2048 + q.val) / 2097152 = p.val / 1024; omega
    | ⟨1, _⟩ => show (p.val * 2048 + q.val) / 2048 % 1024 = p.val % 1024; omega
    | ⟨2, _⟩ => show (p.val * 2048 + q.val) % 2048 = q.val; omega)

/-! ## The stages, index by index -/

/-- The first contraction at expert e, row i, packed column c. -/
theorem v1_at (x0 : X0) (x1 : X1) (e : Fin 8) (i : Fin 1024) (c : Fin 8192) :
    val_main_v1 (F := Ideal) x0 x1 (ix3 e i c) = ∑ k : Fin 2048, x0 (ix2 (tok e i) k) * x1 (ix3 e k c) := by
  rw [val_main_v1_apply]
  refine Finset.sum_congr rfl fun k _ => ?_
  rw [val_main_v0_apply, idx_v0_lidx_v1, ridx_v1]

/-- The gate half. -/
theorem v2_at (x0 : X0) (x1 : X1) (e : Fin 8) (i : Fin 1024) (f : Fin 4096) :
    val_main_v2 (F := Ideal) x0 x1 (ix3 e i f) = gate x0 x1 e i f := by
  rw [val_main_v2_apply, idx_v2, v1_at]; rfl

/-- The up half. -/
theorem v3_at (x0 : X0) (x1 : X1) (e : Fin 8) (i : Fin 1024) (f : Fin 4096) :
    val_main_v3 (F := Ideal) x0 x1 (ix3 e i f) = up x0 x1 e i f := by
  rw [val_main_v3_apply, idx_v3, v1_at]; rfl

/-- The quotient 1 / (1 + exp (-z)) is the logistic function. -/
theorem v4_at (x0 : X0) (x1 : X1) (e : Fin 8) (i : Fin 1024) (f : Fin 4096) :
    val_main_v4 (F := Ideal) x0 x1 (ix3 e i f) = gate x0 x1 e i f * Ideal.logistic (gate x0 x1 e i f) := by
  rw [val_main_v4_apply, val_main_call0_v5_apply, val_main_call0_v4_apply, val_main_call0_cst_0_apply,
    val_main_call0_v3_apply, val_main_call0_v2_apply, val_main_call0_cst_apply, val_main_call0_v1_apply,
    val_main_call0_v0_apply, v2_at]
  simp only [Ideal.mulf_def, Ideal.hostDivf_def, Ideal.ofBits_def, Ideal.ofBits_one_f32, Ideal.addf_def,
    Ideal.hostUnary_exp_def, Ideal.hostNegf_def, Ideal.negf_def]
  rfl

/-- The gated hidden activation. -/
theorem v5_at (x0 : X0) (x1 : X1) (e : Fin 8) (i : Fin 1024) (f : Fin 4096) :
    val_main_v5 (F := Ideal) x0 x1 (ix3 e i f) = hid x0 x1 e i f := by
  rw [val_main_v5_apply, v3_at, v4_at]; rfl

/-- The second contraction. -/
theorem v6_at (x0 : X0) (x1 : X1) (x2 : X2) (e : Fin 8) (i : Fin 1024) (j : Fin 2048) :
    val_main_v6 (F := Ideal) x0 x1 x2 (ix3 e i j) = out x0 x1 x2 e i j := by
  rw [val_main_v6_apply]
  refine Finset.sum_congr rfl fun f _ => ?_
  rw [lidx_v6, ridx_v6, v5_at]

/-- The reference's result is the specification's layer. -/
theorem ref_eq_layer (x0 : (⟨Cert.ReferenceIdeal.S8192x2048, .f32⟩ : BufTy).Contents (Elt Ideal))
    (x1 : (⟨Cert.ReferenceIdeal.S8x2048x8192, .f32⟩ : BufTy).Contents (Elt Ideal))
    (x2 : (⟨Cert.ReferenceIdeal.S8x4096x2048, .f32⟩ : BufTy).Contents (Elt Ideal)) :
    Cert.ReferenceIdeal.Read.val_main_v7 (F := Ideal) x0 x1 x2 = Cert.MoE.layer x0 x1 x2 := by
  funext r
  obtain ⟨p, q, rfl⟩ : ∃ (p : Fin 8192) (q : Fin 2048), r = ix2 p q := ⟨r 0, r 1, eq_ix2 r⟩
  rw [val_main_v7_apply, idx_v7, v6_at]
  rfl

end Cert.MoE.Ref

end
-- ==== Proof.LibPlainDot.lean ====
/-
  A plain matrix product read at an index.

  For the dimension numbers of an `M×K` by `K×N` product (contract the left operand's columns with the right operand's
  rows, no batch axis), the left operand's index at result index `(p, q)` and contraction position `k` is `(p, k)` and the
  right operand's is `(k, q)`. So, at the exact values, the vector unit's product into the zero accumulator and the
  host's `dot_general` are both, at `(p, q)`, the sum over `k` of `l (p, k) · r (k, q)`.
-/
import Idealize.ShloMosaic.Lib.ValueIdx
import Idealize.ShloMosaic.PureOps.Ideal.Laws

noncomputable section

open scoped BigOperators

namespace Cert.PlainDot

open Idealize.ShloMosaic Idealize.ShloMosaic.ValueIdx

variable (M K N : ℕ)

/-- One axis is contracted, of extent `K`. -/
theorem contr_rank : (DotDims.plain M K N).contr.rank = 1 := rfl
theorem contr_size : (DotDims.plain M K N).contr.size ⟨0, by rw [contr_rank]; exact Nat.one_pos⟩ = K := rfl

/-- The contraction positions are the numbers below `K`. -/
abbrev pos : (DotDims.plain M K N).contr.Idx ≃ Fin K := contrEquiv1 (DotDims.plain M K N) K (contr_rank M K N) (contr_size M K N)

/-- On its row axis the left operand follows the result's row. -/
theorem lhsIdx_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its column axis the right operand follows the result's column. -/
theorem rhsIdx_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand is read at `(p, k)`. -/
theorem lhsIdx_eq (p : Fin M) (q : Fin N) (k : Fin K) :
    (DotDims.plain M K N).lhsIdx (ix2 p q) ((pos M K N).symm k) = ix2 p k := by
  have hk := contrEquiv1_symm_val (DotDims.plain M K N) K (contr_rank M K N) (contr_size M K N) k
  funext a
  apply Fin.ext
  match a with
  | ⟨0, _⟩ => exact lhsIdx_row M K N _ _
  | ⟨1, _⟩ => exact ((DotDims.plain M K N).lhsIdx_val_of_single (cl := (1 : Fin 2)) rfl _ _).trans hk

/-- The right operand is read at `(k, q)`. -/
theorem rhsIdx_eq (p : Fin M) (q : Fin N) (k : Fin K) :
    (DotDims.plain M K N).rhsIdx (ix2 p q) ((pos M K N).symm k) = ix2 k q := by
  have hk := contrEquiv1_symm_val (DotDims.plain M K N) K (contr_rank M K N) (contr_size M K N) k
  funext a
  apply Fin.ext
  match a with
  | ⟨0, _⟩ => exact ((DotDims.plain M K N).rhsIdx_val_of_single (cr := (0 : Fin 2)) rfl _ _).trans hk
  | ⟨1, _⟩ => exact rhsIdx_col M K N _ _

variable {M K N}

/-- The sum over contraction positions is the sum over `k < K` of the operands at `(p, k)` and `(k, q)`. -/
theorem sum_contr {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k) : EReal)
      = ∑ k : Fin K, l (ix2 p k) * r (ix2 k q) := by
  rw [← Equiv.sum_comp (pos M K N).symm]
  refine Finset.sum_congr rfl fun k _ => ?_
  rw [lhsIdx_eq, rhsIdx_eq]

/-- The vector unit's product into the zero accumulator, at `(p, q)`. -/
theorem matmul_zero_apply {φ₁ φ₂ : FTy} (prec : Option ContractPrecision) (l : FVec Ideal ⟨2, ![M, K]⟩ φ₁) (r : FVec Ideal ⟨2, ![K, N]⟩ φ₂)
    (p : Fin M) (q : Fin N) :
    FloatOps.matmul (DotDims.plain M K N) prec l r (constant ⟨2, ![M, N]⟩ .f32 0x00000000#32) (ix2 p q) = ∑ k : Fin K, l (ix2 p k) * r (ix2 k q) :=
  (Ideal.matmul_constant_zero_apply _ prec l r _).trans (sum_contr l r p q)

/-- The host's `dot_general`, at `(p, q)`. -/
theorem dotGeneral_apply {φ₁ φ₂ : FTy} (prec : Option ContractPrecision) (sched : HostSchedule) (l : FVec Ideal ⟨2, ![M, K]⟩ φ₁)
    (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply _ prec sched l r _).trans (sum_contr l r p q)

end Cert.PlainDot

end
-- ==== Proof.Payloads.lean ====
/-
  The two values the kernel's body stores, each read at an index, on the extended reals.

  The first branch of the body holds one expert's activations as a block [1, 1024, 2048] and one 256-column
  strip of that expert's gate weights and of its up weights as blocks [1, 2048, 256]. Viewed as matrices
  (dropping the unit axis changes no row-major position) and narrowed (the identity on the extended reals),
  the two products into the zero accumulator are, at (p, q),

      gate p q = Σ_k x (0, p, k) · g (0, k, q)        up p q = Σ_k x (0, p, k) · u (0, k, q)

  and the value stored is  up p q · (gate p q · logistic (gate p q)),  the gated hidden activation.

  The second branch holds the whole hidden matrix [1024, 4096] and one 256-column strip of the down weights as
  a block [1, 4096, 256]; the value stored at (0, p, q) is  Σ_k hidden (p, k) · d (0, k, q).
-/
import proofs.«164289_j53798760349861_2_alg».proof.Proof.Gen.KernelIdeal.Skeleton
import proofs.«164289_j53798760349861_2_alg».proof.Proof.LibPlainDot
import proofs.«164289_j53798760349861_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.MoE.Pay

open Cert.KernelIdeal Cert.KernelIdeal.Gen Idealize.ShloMosaic Idealize.ShloMosaic.ValueIdx

/-- The dimension record of the two projections is the plain 1024×2048 by 2048×256 product's. -/
theorem dot_proj_eq : dot_S1024x2048_S2048x256_S1024x256_1_0_0_1_n_n = DotDims.plain 1024 2048 256 := rfl
/-- The dimension record of the down projection is the plain 1024×4096 by 4096×256 product's. -/
theorem dot_down_eq : dot_S1024x4096_S4096x256_S1024x256_1_0_0_1_n_n = DotDims.plain 1024 4096 256 := rfl

/-- One projection: the activations block by a weights block, both viewed as matrices and the weights narrowed,
    into the zero accumulator. At (p, q) it is the sum over k of x (0, p, k) · w (0, k, q). -/
theorem proj_apply (x : Vec Ideal S1x1024x2048 .bf16) (w : Vec Ideal S1x2048x256 .f32) (p : Fin 1024) (q : Fin 256) :
    matmul (F := Ideal) dot_S1024x2048_S2048x256_S1024x256_1_0_0_1_n_n none
        (shapeCast S1024x2048 x shapeCasts_S1x1024x2048_S1024x2048 : FVec Ideal S1024x2048 .bf16)
        (truncf .bf16 (shapeCast S2048x256 w shapeCasts_S1x2048x256_S2048x256 : FVec Ideal S2048x256 .f32) bitsLt_bf16_f32 : FVec Ideal S2048x256 .bf16)
        (constant S1024x256 .f32 0x00000000#32) (ix2 p q)
      = ∑ k : Fin 2048, x (ix3 0 p k) * w (ix3 0 k q) := by
  refine (Cert.PlainDot.matmul_zero_apply (M := 1024) (K := 2048) (N := 256) none _ _ p q).trans ?_
  refine Finset.sum_congr rfl fun k _ => ?_
  refine congrArg₂ (· * ·) ?_ ?_
  · exact shapeCast_1ab_ab_apply x shapeCasts_S1x1024x2048_S1024x2048 p k
  · exact (truncf_apply _ bitsLt_bf16_f32 (ix2 k q)).trans
      (shapeCast_1ab_ab_apply w shapeCasts_S1x2048x256_S2048x256 k q)

/-- The value the first branch stores, at (p, q): up · (gate · logistic gate). -/
theorem pay1_apply (v6 : Vec Ideal S1x1024x2048 .bf16) (v8 v11 : Vec Ideal S1x2048x256 .f32) (p : Fin 1024) (q : Fin 256) :
    k0_pay1 (F := Ideal) v6 v8 v11 (ix2 p q)
      = (∑ k : Fin 2048, v6 (ix3 0 p k) * v11 (ix3 0 k q)) * ((∑ k : Fin 2048, v6 (ix3 0 p k) * v8 (ix3 0 k q)) * Ideal.logistic (∑ k : Fin 2048, v6 (ix3 0 p k) * v8 (ix3 0 k q))) := by
  unfold k0_pay1
  -- the outer cast keeps the shape; narrowing is the identity; then the two products and the logistic, element by element
  refine (congrFun (shapeCast_self _ shapeCasts_S1024x256_S1024x256) (ix2 p q)).trans ?_
  refine (truncf_apply _ bitsLt_bf16_f32 (ix2 p q)).trans ?_
  refine (mulf_apply _ _ (ix2 p q)).trans ?_
  refine congrArg₂ (· * ·) (proj_apply v6 v11 p q) ?_
  refine (mulf_apply _ _ (ix2 p q)).trans ?_
  refine congrArg₂ (· * ·) (proj_apply v6 v8 p q) ?_
  show Ideal.logistic _ = _
  exact congrArg Ideal.logistic (proj_apply v6 v8 p q)

/-- The value the second branch stores, at (0, p, q): the hidden matrix by the down weights' block. -/
theorem pay2_apply (v6 : Vec Ideal S1x4096x256 .f32) (v9 : Vec Ideal S1024x4096 .bf16) (p : Fin 1024) (q : Fin 256) :
    k0_pay2 (F := Ideal) v6 v9 (ix3 0 p q) = ∑ k : Fin 4096, v9 (ix2 p k) * v6 (ix3 0 k q) := by
  unfold k0_pay2
  refine (shapeCast_ab_1ab_apply _ shapeCasts_S1024x256_S1x1024x256 (0 : Fin 1) p q).trans ?_
  refine (Cert.PlainDot.matmul_zero_apply (M := 1024) (K := 4096) (N := 256) none _ _ p q).trans ?_
  refine Finset.sum_congr rfl fun k _ => ?_
  refine congrArg (v9 (ix2 p k) * ·) ?_
  exact (truncf_apply _ bitsLt_bf16_f32 (ix2 k q)).trans
    (shapeCast_1ab_ab_apply v6 shapeCasts_S1x4096x256_S4096x256 k q)

end Cert.MoE.Pay

end
-- ==== Proof.TilesI.lean ====
/-
  The blocks the region's windows hold at a grid point, as pieces of the three argument arrays, and the two
  values the body stores there as tiles of the layer's hidden activations and of its result.

  The grid has 8 x 24 = 192 points; point t is step k = t % 24 of expert e = t / 24. At t,
    window 0 holds expert e's activations: rows e * 1024 + p of the flat array (its reshape, narrowed);
    window 1 holds columns 256 * min k 15 + q of expert e's packed weights: a strip of the gate half;
    window 2 holds columns 256 * (min k 15 + 16) + q = 4096 + (256 * min k 15 + q): the same strip of the up half;
    window 3 holds columns 256 * (k - 16) + q of expert e's down weights;
    window 4, the output, is at columns 256 * (k - 16) + q of expert e's rows of the result.
  A block's coordinate in its array is always (block index) * (block extent) + (coordinate inside the block); the
  block indices are decided once over the 192 points.

  So for k < 16 the first stored value is the hidden tile  hid e p (256 k + q),  and for 16 <= k, given the whole
  hidden matrix of expert e, the second is the result tile  out e p (256 (k - 16) + q).
-/
import proofs.«164289_j53798760349861_2_alg».proof.Proof.FrBasicsI
import proofs.«164289_j53798760349861_2_alg».proof.Proof.Payloads
import proofs.«164289_j53798760349861_2_alg».proof.Proof.Spec
import Idealize.ShloMosaic.Lib.ValueIdx
import Idealize.ShloMosaic.Lib.ValueLayout
import Idealize.ShloMosaic.Lib.Pipeline.Value

set_option maxRecDepth 16384

noncomputable section

open scoped BigOperators

namespace Cert.MoE.Tiles

open Cert.KernelIdeal Cert.KernelIdeal.Gen Cert.KernelIdeal.Fr
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ)

/-! ## The grid point's expert, and the columns its tiles cover -/

theorem N_eq : cfg0.N = 192 := rfl

/-- The expert a grid point works on. -/
def ex (t : Fin cfg0.N) : Fin 8 := ⟨t.val / 24, by have h : t.val < 192 := t.isLt; omega⟩
theorem ex_val (t : Fin cfg0.N) : (ex t).val = t.val / 24 := rfl

/-- The column of the packed weights a gate block's column q is, at point t. -/
def gateCol (t : Fin cfg0.N) (q : Fin 256) : Fin 8192 := ⟨256 * min (t.val % 24) 15 + q.val, by omega⟩
/-- The column of the packed weights an up block's column q is, at point t. -/
def upCol (t : Fin cfg0.N) (q : Fin 256) : Fin 8192 := ⟨256 * (min (t.val % 24) 15 + 16) + q.val, by omega⟩
/-- The hidden unit a gate/up step's column q is. -/
def hidCol (t : Fin cfg0.N) (hk : t.val % 24 < 16) (q : Fin 256) : Fin 4096 := ⟨256 * (t.val % 24) + q.val, by omega⟩
/-- The output column a down step's column q is (the subtraction truncated at zero, as the index map's maximum with zero is). -/
def outCol (t : Fin cfg0.N) (q : Fin 256) : Fin 2048 := ⟨256 * (t.val % 24 - 16) + q.val, by omega⟩
theorem gateCol_val (t : Fin cfg0.N) (q : Fin 256) : (gateCol t q).val = 256 * min (t.val % 24) 15 + q.val := rfl
theorem upCol_val (t : Fin cfg0.N) (q : Fin 256) : (upCol t q).val = 256 * (min (t.val % 24) 15 + 16) + q.val := rfl
theorem hidCol_val (t : Fin cfg0.N) (hk : t.val % 24 < 16) (q : Fin 256) : (hidCol t hk q).val = 256 * (t.val % 24) + q.val := rfl
theorem outCol_val (t : Fin cfg0.N) (q : Fin 256) : (outCol t q).val = 256 * (t.val % 24 - 16) + q.val := rfl

/-! ## The activations as the region finds them -/

/-- The region's first array is the flat activations reshaped to [8, 1024, 2048] and narrowed. -/
theorem V_main_v1_eq (c : Dev nD) :
    (V m c main_v1 : S8x1024x2048.Idx → EReal)
      = (truncf .bf16 (shapeCast S8x1024x2048 (m ((c : Thread nD τ).loc main_arg0)) shapeCasts_S8192x2048_S8x1024x2048 : FVec Ideal S8x1024x2048 .f32) bitsLt_bf16_f32 : FVec Ideal S8x1024x2048 .bf16) := by
  dsimp only [V, V0]
  simp only [hostOps0, List.flatten_cons, List.flatten_nil, List.append_nil]
  after_results
  rfl

/-- (a) At (e, i, k) it is the flat activations at row e * 1024 + i, column k. -/
theorem V_main_v1_apply (c : Dev nD) (e : Fin 8) (i : Fin 1024) (k : Fin 2048) :
    V m c main_v1 (ix3 e i k) = m ((c : Thread nD τ).loc main_arg0) (ix2 (Cert.MoE.tok e i) k) := by
  refine (congrFun (V_main_v1_eq m c) (ix3 e i k)).trans ?_
  refine (truncf_apply _ bitsLt_bf16_f32 (ix3 e i k)).trans ?_
  exact shapeCast_apply _ shapeCasts_S8192x2048_S8x1024x2048 (ix3 e i k) (ix2 (Cert.MoE.tok e i) k) (by
    rw [Shape.rowMajor_val_two, Shape.rowMajor_val_three]
    show (e.val * 1024 + i.val) * 2048 + k.val = (e.val * 1024 + i.val) * 2048 + k.val
    rfl)

/-! ## The windows' block indices, decided over the grid -/

theorem idx_w0 : ∀ t : Fin cfg0.N, win0_0.index t (0 : Fin 3) = t.val / 24 ∧ win0_0.index t (1 : Fin 3) = 0 ∧ win0_0.index t (2 : Fin 3) = 0 :=
  (by decide +kernel : ∀ t : Fin grid0.N, win0_0.index t (0 : Fin 3) = t.val / 24 ∧ win0_0.index t (1 : Fin 3) = 0 ∧ win0_0.index t (2 : Fin 3) = 0)
theorem idx_w1 : ∀ t : Fin cfg0.N, win0_1.index t (0 : Fin 3) = t.val / 24 ∧ win0_1.index t (1 : Fin 3) = 0 ∧ win0_1.index t (2 : Fin 3) = min (t.val % 24) 15 :=
  (by decide +kernel : ∀ t : Fin grid0.N, win0_1.index t (0 : Fin 3) = t.val / 24 ∧ win0_1.index t (1 : Fin 3) = 0 ∧ win0_1.index t (2 : Fin 3) = min (t.val % 24) 15)
theorem idx_w2 : ∀ t : Fin cfg0.N, win0_2.index t (0 : Fin 3) = t.val / 24 ∧ win0_2.index t (1 : Fin 3) = 0 ∧ win0_2.index t (2 : Fin 3) = min (t.val % 24) 15 + 16 :=
  (by decide +kernel : ∀ t : Fin grid0.N, win0_2.index t (0 : Fin 3) = t.val / 24 ∧ win0_2.index t (1 : Fin 3) = 0 ∧ win0_2.index t (2 : Fin 3) = min (t.val % 24) 15 + 16)
theorem idx_w3 : ∀ t : Fin cfg0.N, win0_3.index t (0 : Fin 3) = t.val / 24 ∧ win0_3.index t (1 : Fin 3) = 0 ∧ win0_3.index t (2 : Fin 3) = t.val % 24 - 16 :=
  (by decide +kernel : ∀ t : Fin grid0.N, win0_3.index t (0 : Fin 3) = t.val / 24 ∧ win0_3.index t (1 : Fin 3) = 0 ∧ win0_3.index t (2 : Fin 3) = t.val % 24 - 16)
theorem idx_w4 : ∀ t : Fin cfg0.N, win0_4.index t (0 : Fin 3) = t.val / 24 ∧ win0_4.index t (1 : Fin 3) = 0 ∧ win0_4.index t (2 : Fin 3) = t.val % 24 - 16 :=
  (by decide +kernel : ∀ t : Fin grid0.N, win0_4.index t (0 : Fin 3) = t.val / 24 ∧ win0_4.index t (1 : Fin 3) = 0 ∧ win0_4.index t (2 : Fin 3) = t.val % 24 - 16)

/-! ## Where a block's index lies in its array: block index * block extent + the coordinate inside -/

theorem emb_w0 (t : Fin cfg0.N) (p : Fin 1024) (k : Fin 2048) :
    ((cfg0.win 0).blk t).view.emb (ix3 (0 : Fin 1) p k) = ix3 (ex t) p k := by
  obtain ⟨e0, e1, e2⟩ := idx_w0 t
  funext a; apply Fin.ext
  match a with
  | ⟨0, _⟩ => show win0_0.index t (0 : Fin 3) * 1 + 1 * (0 : Fin 1).val = t.val / 24; rw [e0]; simp
  | ⟨1, _⟩ => show win0_0.index t (1 : Fin 3) * 1024 + 1 * p.val = p.val; omega
  | ⟨2, _⟩ => show win0_0.index t (2 : Fin 3) * 2048 + 1 * k.val = k.val; omega

theorem emb_w1 (t : Fin cfg0.N) (k : Fin 2048) (q : Fin 256) :
    ((cfg0.win 1).blk t).view.emb (ix3 (0 : Fin 1) k q) = ix3 (ex t) k (gateCol t q) := by
  obtain ⟨e0, e1, e2⟩ := idx_w1 t
  funext a; apply Fin.ext
  match a with
  | ⟨0, _⟩ => show win0_1.index t (0 : Fin 3) * 1 + 1 * (0 : Fin 1).val = t.val / 24; rw [e0]; simp
  | ⟨1, _⟩ => show win0_1.index t (1 : Fin 3) * 2048 + 1 * k.val = k.val; omega
  | ⟨2, _⟩ => show win0_1.index t (2 : Fin 3) * 256 + 1 * q.val = 256 * min (t.val % 24) 15 + q.val; omega

theorem emb_w2 (t : Fin cfg0.N) (k : Fin 2048) (q : Fin 256) :
    ((cfg0.win 2).blk t).view.emb (ix3 (0 : Fin 1) k q) = ix3 (ex t) k (upCol t q) := by
  obtain ⟨e0, e1, e2⟩ := idx_w2 t
  funext a; apply Fin.ext
  match a with
  | ⟨0, _⟩ => show win0_2.index t (0 : Fin 3) * 1 + 1 * (0 : Fin 1).val = t.val / 24; rw [e0]; simp
  | ⟨1, _⟩ => show win0_2.index t (1 : Fin 3) * 2048 + 1 * k.val = k.val; omega
  | ⟨2, _⟩ => show win0_2.index t (2 : Fin 3) * 256 + 1 * q.val = 256 * (min (t.val % 24) 15 + 16) + q.val; omega

theorem emb_w3 (t : Fin cfg0.N) (f : Fin 4096) (q : Fin 256) :
    ((cfg0.win 3).blk t).view.emb (ix3 (0 : Fin 1) f q) = ix3 (ex t) f (outCol t q) := by
  obtain ⟨e0, e1, e2⟩ := idx_w3 t
  funext a; apply Fin.ext
  match a with
  | ⟨0, _⟩ => show win0_3.index t (0 : Fin 3) * 1 + 1 * (0 : Fin 1).val = t.val / 24; rw [e0]; simp
  | ⟨1, _⟩ => show win0_3.index t (1 : Fin 3) * 4096 + 1 * f.val = f.val; omega
  | ⟨2, _⟩ => show win0_3.index t (2 : Fin 3) * 256 + 1 * q.val = 256 * (t.val % 24 - 16) + q.val; omega

/-- (b, the output window) Its block's index (0, p, q) is the result's index (e, p, 256 (k - 16) + q). -/
theorem emb_w4 (t : Fin cfg0.N) (p : Fin 1024) (q : Fin 256) :
    ((cfg0.win 4).blk t).view.emb (ix3 (0 : Fin 1) p q) = ix3 (ex t) p (outCol t q) := by
  obtain ⟨e0, e1, e2⟩ := idx_w4 t
  funext a; apply Fin.ext
  match a with
  | ⟨0, _⟩ => show win0_4.index t (0 : Fin 3) * 1 + 1 * (0 : Fin 1).val = t.val / 24; rw [e0]; simp
  | ⟨1, _⟩ => show win0_4.index t (1 : Fin 3) * 1024 + 1 * p.val = p.val; omega
  | ⟨2, _⟩ => show win0_4.index t (2 : Fin 3) * 256 + 1 * q.val = 256 * (t.val % 24 - 16) + q.val; omega

/-! ## (b) The input windows' blocks read at an index -/

theorem blk0_apply (c : Dev nD) (t : Fin cfg0.N) (p : Fin 1024) (k : Fin 2048) :
    iblk m c 0 t (ix3 (0 : Fin 1) p k) = V m c main_v1 (ix3 (ex t) p k) := by
  show V m c main_v1 (((cfg0.win 0).blk t).view.emb (ix3 (0 : Fin 1) p k)) = _
  rw [emb_w0]

theorem blk1_apply (c : Dev nD) (t : Fin cfg0.N) (k : Fin 2048) (q : Fin 256) :
    iblk m c 1 t (ix3 (0 : Fin 1) k q) = V m c main_arg1 (ix3 (ex t) k (gateCol t q)) := by
  show V m c main_arg1 (((cfg0.win 1).blk t).view.emb (ix3 (0 : Fin 1) k q)) = _
  rw [emb_w1]

theorem blk2_apply (c : Dev nD) (t : Fin cfg0.N) (k : Fin 2048) (q : Fin 256) :
    iblk m c 2 t (ix3 (0 : Fin 1) k q) = V m c main_arg1 (ix3 (ex t) k (upCol t q)) := by
  show V m c main_arg1 (((cfg0.win 2).blk t).view.emb (ix3 (0 : Fin 1) k q)) = _
  rw [emb_w2]

theorem blk3_apply (c : Dev nD) (t : Fin cfg0.N) (f : Fin 4096) (q : Fin 256) :
    iblk m c 3 t (ix3 (0 : Fin 1) f q) = V m c main_arg2 (ix3 (ex t) f (outCol t q)) := by
  show V m c main_arg2 (((cfg0.win 3).blk t).view.emb (ix3 (0 : Fin 1) f q)) = _
  rw [emb_w3]

/-! ## (c) A gate/up step stores a tile of the hidden activations -/

/-- Over any three blocks whose entries are the activations' row of token (e, p) and the gate and up columns of
    hidden unit f of expert e, the first stored value at (p, q) is the hidden activation of (e, p) at f. -/
theorem pay1_hid (X : Vec Ideal S1x1024x2048 .bf16) (G U : Vec Ideal S1x2048x256 .f32) (x : Cert.MoE.Acts) (w : Cert.MoE.GateUp)
    (e : Fin 8) (p : Fin 1024) (q : Fin 256) (f : Fin 4096)
    (hX : ∀ k : Fin 2048, X (ix3 (0 : Fin 1) p k) = x (ix2 (Cert.MoE.tok e p) k))
    (hG : ∀ k : Fin 2048, G (ix3 (0 : Fin 1) k q) = w (ix3 e k (Cert.MoE.gcol f)))
    (hU : ∀ k : Fin 2048, U (ix3 (0 : Fin 1) k q) = w (ix3 e k (Cert.MoE.ucol f))) :
    k0_pay1 (F := Ideal) X G U (ix2 p q) = Cert.MoE.hid x w e p f := by
  refine (Pay.pay1_apply X G U p q).trans ?_
  have hg : (∑ k : Fin 2048, X (ix3 (0 : Fin 1) p k) * G (ix3 (0 : Fin 1) k q)) = Cert.MoE.gate x w e p f :=
    Finset.sum_congr rfl fun k _ => congrArg₂ (· * ·) (hX k) (hG k)
  have hu : (∑ k : Fin 2048, X (ix3 (0 : Fin 1) p k) * U (ix3 (0 : Fin 1) k q)) = Cert.MoE.up x w e p f :=
    Finset.sum_congr rfl fun k _ => congrArg₂ (· * ·) (hX k) (hU k)
  exact congrArg₂ (· * ·) hu (congrArg₂ (· * ·) hg (congrArg Ideal.logistic hg))

theorem hid_tile (c : Dev nD) (t : Fin cfg0.N) (hk : t.val % 24 < 16) (p : Fin 1024) (q : Fin 256) :
    k0_pay1 (F := Ideal) (iblk m c 0 t) (iblk m c 1 t) (iblk m c 2 t) (ix2 p q)
      = Cert.MoE.hid (m ((c : Thread nD τ).loc main_arg0)) (m ((c : Thread nD τ).loc main_arg1)) (ex t) p (hidCol t hk q) := by
  -- one factor of a term of the gate sum and of the up sum, each read off the argument arrays
  have hx : ∀ k : Fin 2048, iblk m c 0 t (ix3 (0 : Fin 1) p k) = m ((c : Thread nD τ).loc main_arg0) (ix2 (Cert.MoE.tok (ex t) p) k) :=
    fun k => (blk0_apply m c t p k).trans (V_main_v1_apply m c (ex t) p k)
  have hg : ∀ k : Fin 2048, iblk m c 1 t (ix3 (0 : Fin 1) k q) = m ((c : Thread nD τ).loc main_arg1) (ix3 (ex t) k (Cert.MoE.gcol (hidCol t hk q))) := fun k => by
    refine (blk1_apply m c t k q).trans ?_
    rw [V_main_arg1]
    refine congrArg (fun j => m ((c : Thread nD τ).loc main_arg1) (ix3 (ex t) k j)) (Fin.ext ?_)
    show 256 * min (t.val % 24) 15 + q.val = 256 * (t.val % 24) + q.val
    omega
  have hu : ∀ k : Fin 2048, iblk m c 2 t (ix3 (0 : Fin 1) k q) = m ((c : Thread nD τ).loc main_arg1) (ix3 (ex t) k (Cert.MoE.ucol (hidCol t hk q))) := fun k => by
    refine (blk2_apply m c t k q).trans ?_
    rw [V_main_arg1]
    refine congrArg (fun j => m ((c : Thread nD τ).loc main_arg1) (ix3 (ex t) k j)) (Fin.ext ?_)
    show 256 * (min (t.val % 24) 15 + 16) + q.val = 4096 + (256 * (t.val % 24) + q.val)
    omega
  exact pay1_hid _ _ _ _ _ (ex t) p q (hidCol t hk q) hx hg hu

/-! ## (d) A down step stores a tile of the result -/

theorem out_tile (c : Dev nD) (t : Fin cfg0.N) (hk : 16 ≤ t.val % 24) (Hs : Vec Ideal S1024x4096 .bf16)
    (hHs : ∀ (p : Fin 1024) (f : Fin 4096), Hs (ix2 p f)
      = Cert.MoE.hid (m ((c : Thread nD τ).loc main_arg0)) (m ((c : Thread nD τ).loc main_arg1)) (ex t) p f)
    (p : Fin 1024) (q : Fin 256) :
    k0_pay2 (F := Ideal) (iblk m c 3 t) Hs (ix3 (0 : Fin 1) p q)
      = Cert.MoE.out (m ((c : Thread nD τ).loc main_arg0)) (m ((c : Thread nD τ).loc main_arg1)) (m ((c : Thread nD τ).loc main_arg2)) (ex t) p (outCol t q) := by
  refine (Pay.pay2_apply _ Hs p q).trans ?_
  refine Finset.sum_congr rfl fun f _ => ?_
  refine congrArg₂ (· * ·) (hHs p f) ((blk3_apply m c t f q).trans ?_)
  rw [V_main_arg2]

end Cert.MoE.Tiles

end
-- ==== Proof.OutArrayI.lean ====
/-
  The result array the region leaves, on the extended reals.

  Column f of expert e's hidden activations is stored by the gate/up step f / 256 of that expert, at column
  f % 256 of its tile, and 256 * (f / 256) + f % 256 = f: so the closed form of the hidden matrix is the layer's
  hidden activation, entry by entry. A down step k (16 <= k) of expert e then writes back the block
  [1, 1024, 256] at block index (e, 0, k - 16) of the result, and what it writes is the layer's down projection
  at the block's indices. Those 8 x 8 blocks tile [8, 1024, 2048] — index (e, p, j) lies in the block of the
  point 24 e + 16 + j / 256 — so the array ends holding the down projection everywhere, and its reshape to
  [8192, 2048] is the layer: row r is expert r / 1024's row r % 1024.
-/
import proofs.«164289_j53798760349861_2_alg».proof.Proof.TilesI
import proofs.«164289_j53798760349861_2_alg».proof.Proof.FrBodyI
import Idealize.ShloMosaic.Lib.ValueIdx
import Idealize.ShloMosaic.Lib.ValueLayout
import Idealize.ShloMosaic.Lib.Pipeline.Value

set_option maxRecDepth 16384

noncomputable section

open scoped BigOperators

namespace Cert.MoE.Arr

open Cert.KernelIdeal Cert.KernelIdeal.Gen Cert.KernelIdeal.Fr Cert.MoE.Tiles
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ)

/-! ## (e) The hidden matrix in closed form is the layer's hidden activations -/

theorem hidOf_apply (c : Dev nD) (t : Fin cfg0.N) (p : Fin 1024) (f : Fin 4096) :
    hidOf (F := Ideal) m c t (ix2 p f)
      = Cert.MoE.hid (m ((c : Thread nD τ).loc main_arg0)) (m ((c : Thread nD τ).loc main_arg1)) (ex t) p f := by
  have hN : t.val < 192 := lt_of_lt_of_eq t.isLt N_eq
  have hf : f.val < 4096 := f.isLt
  -- the step that stores column f, and the column inside its tile
  have hs : (tileAt t (ix2 p f)).val = 24 * (t.val / 24) + f.val / 256 := rfl
  have hk : (tileAt t (ix2 p f)).val % 24 < 16 := by rw [hs]; omega
  have he : ex (tileAt t (ix2 p f)) = ex t :=
    Fin.ext (by show (tileAt t (ix2 p f)).val / 24 = t.val / 24; rw [hs]; omega)
  have hc : hidCol (tileAt t (ix2 p f)) hk ⟨f.val % 256, Nat.mod_lt _ (by decide)⟩ = f :=
    Fin.ext (by show 256 * ((tileAt t (ix2 p f)).val % 24) + f.val % 256 = f.val; rw [hs]; omega)
  show k0_pay1 (F := Ideal) (iblk m c 0 (tileAt t (ix2 p f))) (iblk m c 1 (tileAt t (ix2 p f))) (iblk m c 2 (tileAt t (ix2 p f)))
      (ix2 p ⟨f.val % 256, Nat.mod_lt _ (by decide)⟩) = _
  refine (hid_tile m c (tileAt t (ix2 p f)) hk p ⟨f.val % 256, Nat.mod_lt _ (by decide)⟩).trans ?_
  rw [he, hc]

/-! ## (f) The result array -/

/-- The layer's down projection as an array [8, 1024, 2048]. -/
def G (c : Dev nD) : S8x1024x2048.Idx → EReal := fun i =>
  Cert.MoE.out (m ((c : Thread nD τ).loc main_arg0)) (m ((c : Thread nD τ).loc main_arg1)) (m ((c : Thread nD τ).loc main_arg2)) (i 0) (i 1) (i 2)

/-- An index of a block with a leading unit axis is (0, its second coordinate, its third). -/
theorem eq_ix3_unit {a b : ℕ} (y : (⟨3, ![1, a, b]⟩ : Shape).Idx) : y = ix3 (0 : Fin 1) (y 1) (y 2) := by
  funext d
  match d with
  | ⟨0, _⟩ =>
    apply Fin.ext
    have h : (y 0).val < 1 := (y 0).isLt
    show (y 0).val = 0
    omega
  | ⟨1, _⟩ => rfl
  | ⟨2, _⟩ => rfl

/-- The output is written back at the down steps only. -/
theorem down_of_flush (t : Fin cfg0.N) (hf : (cfg0.win 4).flush t = true) : 16 ≤ t.val % 24 := by
  by_contra h
  rw [noFlush4_A t (Nat.lt_of_not_le h)] at hf
  exact absurd hf (by decide)

/-- What a down step writes back is its block of the down projection. -/
theorem flushed4_eq (c : Dev nD) (t : Fin cfg0.N) (hf : (cfg0.win 4).flush t = true) :
    (dats m 0 c).flushed 4 t = ((cfg0.win 4).blk t).view.read (Elt Ideal) (G m c) := by
  have hk : 16 ≤ t.val % 24 := down_of_flush t hf
  show (cfg0.win 4).cut (grid0.coords t) ((dats m 0 c).after 4 t) = _
  rw [after4]
  funext y
  obtain ⟨p, q, rfl⟩ : ∃ (p : Fin 1024) (q : Fin 256), y = ix3 (0 : Fin 1) p q := ⟨y 1, y 2, eq_ix3_unit y⟩
  show k0_pay2 (F := Ideal) (iblk m c 3 t) (hidOf m c t) (ix3 (0 : Fin 1) p q) = G m c (((cfg0.win 4).blk t).view.emb (ix3 (0 : Fin 1) p q))
  rw [emb_w4]
  exact out_tile m c t hk (hidOf m c t) (hidOf_apply m c t) p q

/-- An index of the array is in point t's block iff each coordinate is in the block's range on its axis. -/
theorem mem_blk4 (t : Fin cfg0.N) (i : S8x1024x2048.Idx) :
    i ∈ ((cfg0.win 4).blk t).view.set ↔ ∀ a : Fin 3, win0_4.index t a * S1x1024x256.size a ≤ (i a).val ∧ (i a).val < win0_4.index t a * S1x1024x256.size a + S1x1024x256.size a := by
  show i ∈ ((View.whole main_v2).slice (win0_4.rect t)).set ↔ _
  rw [View.set_slice_whole, Rect.mem_set_unit]
  exact Iff.rfl

/-- Every index (e, p, j) is in the block of the down step 16 + j / 256 of expert e. -/
theorem cover4 (i : S8x1024x2048.Idx) : ∃ t : Fin cfg0.N, (cfg0.win 4).flush t = true ∧ i ∈ ((cfg0.win 4).blk t).view.set := by
  have h0 : (i 0).val < 8 := (i 0).isLt
  have h1 : (i 1).val < 1024 := (i 1).isLt
  have h2 : (i 2).val < 2048 := (i 2).isLt
  have hlt : 24 * (i 0).val + 16 + (i 2).val / 256 < cfg0.N := by rw [N_eq]; omega
  refine ⟨⟨24 * (i 0).val + 16 + (i 2).val / 256, hlt⟩, flush4_B _ (by show 16 ≤ (24 * (i 0).val + 16 + (i 2).val / 256) % 24; omega), ?_⟩
  rw [mem_blk4]
  obtain ⟨e0, e1, e2⟩ := idx_w4 ⟨24 * (i 0).val + 16 + (i 2).val / 256, hlt⟩
  have v : ((⟨24 * (i 0).val + 16 + (i 2).val / 256, hlt⟩ : Fin cfg0.N)).val = 24 * (i 0).val + 16 + (i 2).val / 256 := rfl
  rw [v] at e0 e2
  intro a
  match a with
  | ⟨0, _⟩ =>
    show win0_4.index ⟨24 * (i 0).val + 16 + (i 2).val / 256, hlt⟩ (0 : Fin 3) * 1 ≤ (i 0).val ∧ (i 0).val < win0_4.index ⟨24 * (i 0).val + 16 + (i 2).val / 256, hlt⟩ (0 : Fin 3) * 1 + 1
    rw [e0]; omega
  | ⟨1, _⟩ =>
    show win0_4.index ⟨24 * (i 0).val + 16 + (i 2).val / 256, hlt⟩ (1 : Fin 3) * 1024 ≤ (i 1).val ∧ (i 1).val < win0_4.index ⟨24 * (i 0).val + 16 + (i 2).val / 256, hlt⟩ (1 : Fin 3) * 1024 + 1024
    rw [e1]; omega
  | ⟨2, _⟩ =>
    show win0_4.index ⟨24 * (i 0).val + 16 + (i 2).val / 256, hlt⟩ (2 : Fin 3) * 256 ≤ (i 2).val ∧ (i 2).val < win0_4.index ⟨24 * (i 0).val + 16 + (i 2).val / 256, hlt⟩ (2 : Fin 3) * 256 + 256
    rw [e2]; omega

/-- (f) After the run the result array holds the down projection at every index. -/
theorem out_array (c : Dev nD) :
    ((dats m 0 c).arrAt 4 cfg0.N : S8x1024x2048.Idx → EReal)
      = fun i => Cert.MoE.out (m ((c : Thread nD τ).loc main_arg0)) (m ((c : Thread nD τ).loc main_arg1)) (m ((c : Thread nD τ).loc main_arg2)) (i 0) (i 1) (i 2) :=
  (dats m 0 c).arrAt_eq_of_cover 4 (G m c) (fun t hf => flushed4_eq m c t hf) cover4

/-! ## (g) Its reshape to [8192, 2048] is the layer -/

theorem result_eq (c : Dev nD) :
    (shapeCast S8192x2048 ((dats m 0 c).arrAt 4 cfg0.N : S8x1024x2048.Idx → EReal) shapeCasts_S8x1024x2048_S8192x2048 : S8192x2048.Idx → EReal)
      = Cert.MoE.layer (m ((c : Thread nD τ).loc main_arg0)) (m ((c : Thread nD τ).loc main_arg1)) (m ((c : Thread nD τ).loc main_arg2)) := by
  rw [out_array]
  funext r
  obtain ⟨a, b, rfl⟩ : ∃ (a : Fin 8192) (b : Fin 2048), r = ix2 a b := ⟨r 0, r 1, eq_ix2 r⟩
  refine (shapeCast_apply _ shapeCasts_S8x1024x2048_S8192x2048 (ix2 a b) (ix3 (Cert.MoE.expertOf a) (Cert.MoE.rowOf a) b) (by
    rw [Shape.rowMajor_val_three, Shape.rowMajor_val_two]
    show (a.val / 1024 * 1024 + a.val % 1024) * 2048 + b.val = a.val * 2048 + b.val
    have := Nat.div_add_mod a.val 1024
    omega)).trans ?_
  rfl

end Cert.MoE.Arr

end
-- ==== Proof.lean ====
/-
  The fused grouped-expert feed-forward layer (eight experts, SwiGLU) against its einsum reference.

  Both programs compute, for token row r of expert e = r / 1024,
      out r j = Σ_f (up · (gate · logistic gate)) (e, r % 1024, f) · down (e, f, j),
      gate = x · W[:, :4096],  up = x · W[:, 4096:]        (Spec.lean: `Cert.MoE.layer`).
  The kernel walks an 8 x 24 grid: for each expert sixteen steps each store one 256-column tile of the hidden
  activations into a scratch kept between steps, then eight steps each multiply the whole scratch by one 256-column
  tile of the down weights. The reference is two batched products around the pointwise gate. On the extended reals
  a change of float format is the identity, a matrix product into a zero accumulator is the plain sum, and
  `logistic z` IS `1 / (1 + exp (-z))`, so the two are one function of the three argument arrays; no law beyond
  the definitions of the operations joins them, and the precondition is never opened.

  The frames: the kernel's region is launched with the packed gate/up weights handed to two of its windows, half
  a share each; the scratch's contents after each step are known on the columns stored so far in the current
  expert's phase, which is all of them by the first down step.
-/
import proofs.«164289_j53798760349861_2_alg».proof.Defs
import proofs.«164289_j53798760349861_2_alg».proof.Proof.Gen.Kernel
import proofs.«164289_j53798760349861_2_alg».proof.Proof.Gen.KernelIdeal
import proofs.«164289_j53798760349861_2_alg».proof.Proof.Gen.ReferenceIdeal
import proofs.«164289_j53798760349861_2_alg».proof.Proof.Gen.Pre_finite_inputs
import proofs.«164289_j53798760349861_2_alg».proof.Proof.Gen.ReferenceIdeal.Run
import proofs.«164289_j53798760349861_2_alg».proof.Proof.Gen.ReferenceIdeal.Read
import proofs.«164289_j53798760349861_2_alg».proof.Proof.FrLaunchB
import proofs.«164289_j53798760349861_2_alg».proof.Proof.FrLaunchI
import proofs.«164289_j53798760349861_2_alg».proof.Proof.RefLayer
import proofs.«164289_j53798760349861_2_alg».proof.Proof.OutArrayI
import Idealize.ShloMosaic.Adequacy
import Idealize.ShloMosaic.Init

noncomputable section

namespace Cert.Proof

open Idealize.ShloMosaic Idealize.ShloMosaic.TcCoe Idealize.SL.Sem

/-- The word-level kernel runs, faults nowhere, and leaves its three arguments as launched. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the extended reals the kernel's result array is the reshape of its output array, whose tiles are the down
    products of the hidden activations (`Cert.MoE.Arr.result_eq`), and the reference's is its composed term
    (`Cert.MoE.Ref.ref_eq_layer`): both are the layer of arguments that agree. -/
theorem algebraic : Cert.algebraic_KernelIdeal_ReferenceIdeal := by
  intro m ρ m' ρ' _ hagree
  refine ⟨fun c => Cert.MoE.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c => ⟨(h c).1.trans (Cert.MoE.Arr.result_eq m c), (h c).2⟩)
      (Cert.KernelIdeal.Fr.run_value (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v7_eq, Cert.MoE.Ref.ref_eq_layer, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
